-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1280000 : Shape := ⟨2, ![16, 1280000]⟩
abbrev S1026x1024 : Shape := ⟨2, ![1026, 1024]⟩
abbrev S_ : Shape := ⟨0, ![]⟩

class Facts : Prop where
  bcast_S_S16x1280000 : S_.BroadcastsInDim S16x1280000 (![] : Fin 0 → Fin S16x1280000.rank)
  reducesTo_S16x1280000_S_d0_1 : S16x1280000.ReducesTo [0, 1] S_
  h_S_ : 0 < S_.numel
  bcast_S_S1026x1024 : S_.BroadcastsInDim S1026x1024 (![] : Fin 0 → Fin S1026x1024.rank)
  reducesTo_S1026x1024_S_d0_1 : S1026x1024.ReducesTo [0, 1] S_

variable [Facts]

def fn {F : FTy → Type} [FloatOps F] (main_arg0 : FVec F S16x1280000 .f32) (main_arg1 : FVec F S1026x1024 .f32) : IVec S_ 1 :=
  let main_v0 : FVec F S16x1280000 .f32 := Host.absf main_arg0
  let main_cst : FVec F S_ .f32 := constant S_ .f32 0x7F800000#32
  let main_v1 : FVec F S16x1280000 .f32 := broadcastInDim S16x1280000 ![] bcast_S_S16x1280000 main_cst
  let main_v2 : IVec S16x1280000 1 := cmpf .olt main_v0 main_v1
  let main_c : IVec S_ 1 := constantI S_ 1 1#1
  let main_v3 : IVec S_ 1 := (fun x v => Host.reduce IntOp.andi x v reducesTo_S16x1280000_S_d0_1 h_S_) main_v2 main_c
  let main_v4 : FVec F S1026x1024 .f32 := Host.absf main_arg1
  let main_cst_0 : FVec F S_ .f32 := constant S_ .f32 0x7F800000#32
  let main_v5 : FVec F S1026x1024 .f32 := broadcastInDim S1026x1024 ![] bcast_S_S1026x1024 main_cst_0
  let main_v6 : IVec S1026x1024 1 := cmpf .olt main_v4 main_v5
  let main_c_1 : IVec S_ 1 := constantI S_ 1 1#1
  let main_v7 : IVec S_ 1 := (fun x v => Host.reduce IntOp.andi x v reducesTo_S1026x1024_S_d0_1 h_S_) main_v6 main_c_1
  let main_v8 : IVec S_ 1 := andi main_v3 main_v7
  main_v8
-- ==== Kernel.lean ====
abbrev S16x1280000 : Shape := ⟨2, ![16, 1280000]⟩
abbrev S1026x1024 : Shape := ⟨2, ![1026, 1024]⟩
abbrev S_ : Shape := ⟨0, ![]⟩
abbrev S16x1 : Shape := ⟨2, ![16, 1]⟩
abbrev S16x512 : Shape := ⟨2, ![16, 512]⟩
abbrev S16x1280512 : Shape := ⟨2, ![16, 1280512]⟩
abbrev S16x1281024 : Shape := ⟨2, ![16, 1281024]⟩
abbrev S16x1573376 : Shape := ⟨2, ![16, 1573376]⟩
abbrev S16x3073x512 : Shape := ⟨3, ![16, 3073, 512]⟩
abbrev S16x3072x512 : Shape := ⟨3, ![16, 3072, 512]⟩
abbrev S1026x512 : Shape := ⟨2, ![1026, 512]⟩
abbrev S16x513x3072 : Shape := ⟨3, ![16, 513, 3072]⟩
abbrev S1x1024x512 : Shape := ⟨3, ![1, 1024, 512]⟩
abbrev S1x513x1024 : Shape := ⟨3, ![1, 513, 1024]⟩
abbrev S1024x512 : Shape := ⟨2, ![1024, 512]⟩
abbrev S513x1024 : Shape := ⟨2, ![513, 1024]⟩
abbrev S16x513x2501 : Shape := ⟨3, ![16, 513, 2501]⟩

abbrev nBuf : Space → Nat
  | .hbm => 24
  | .vmem => 10
  | .smem => 0
  | _ => 0

abbrev bufTy : (tb : Table) → Fin (tcTables nBuf tb) → BufTy
  | .hbm, ⟨0, _⟩ => ⟨S16x1280000, .f32⟩
  | .hbm, ⟨1, _⟩ => ⟨S1026x1024, .f32⟩
  | .hbm, ⟨2, _⟩ => ⟨S_, .i32⟩
  | .hbm, ⟨3, _⟩ => ⟨S16x1, .f32⟩
  | .hbm, ⟨4, _⟩ => ⟨S16x512, .f32⟩
  | .hbm, ⟨5, _⟩ => ⟨S16x512, .f32⟩
  | .hbm, ⟨6, _⟩ => ⟨S16x1280512, .f32⟩
  | .hbm, ⟨7, _⟩ => ⟨S16x1, .f32⟩
  | .hbm, ⟨8, _⟩ => ⟨S16x512, .f32⟩
  | .hbm, ⟨9, _⟩ => ⟨S16x512, .f32⟩
  | .hbm, ⟨10, _⟩ => ⟨S16x1281024, .f32⟩
  | .hbm, ⟨11, _⟩ => ⟨S_, .i32⟩
  | .hbm, ⟨12, _⟩ => ⟨S_, .f32⟩
  | .hbm, ⟨13, _⟩ => ⟨S16x1573376, .f32⟩
  | .hbm, ⟨14, _⟩ => ⟨S16x3073x512, .f32⟩
  | .hbm, ⟨15, _⟩ => ⟨S16x3072x512, .f32⟩
  | .hbm, ⟨16, _⟩ => ⟨S1026x512, .f32⟩
  | .hbm, ⟨17, _⟩ => ⟨S1026x512, .bf16⟩
  | .hbm, ⟨18, _⟩ => ⟨S1026x512, .f32⟩
  | .hbm, ⟨19, _⟩ => ⟨S1026x512, .bf16⟩
  | .hbm, ⟨20, _⟩ => ⟨S16x513x3072, .f32⟩
  | .hbm, ⟨21, _⟩ => ⟨S16x513x3072, .f32⟩
  | .hbm, ⟨22, _⟩ => ⟨S16x513x2501, .f32⟩
  | .hbm, ⟨23, _⟩ => ⟨S16x513x2501, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1026x512, .bf16⟩
  | .local _ .vmem, ⟨5, _⟩ => ⟨S1026x512, .bf16⟩
  | .local _ .vmem, ⟨6, _⟩ => ⟨S1x513x1024, .f32⟩
  | .local _ .vmem, ⟨7, _⟩ => ⟨S1x513x1024, .f32⟩
  | .local _ .vmem, ⟨8, _⟩ => ⟨S1x513x1024, .f32⟩
  | .local _ .vmem, ⟨9, _⟩ => ⟨S1x513x1024, .f32⟩
  | _, _ => ⟨S16x1280000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1026x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1026x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x513x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x513x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S16x1280000_S16x1_0_0 : S16x1280000.Slices ![0, 0] S16x1
  slices_S16x1280000_S16x512_0_1 : S16x1280000.Slices ![0, 1] S16x512
  concatenates_S16x512_S16x1280000_S16x1280512_d1 : Shape.Concatenates [S16x512, S16x1280000] S16x1280512 1
  slices_S16x1280512_S16x1_0_1280511 : S16x1280512.Slices ![0, 1280511] S16x1
  slices_S16x1280512_S16x512_0_1279999 : S16x1280512.Slices ![0, 1279999] S16x512
  concatenates_S16x1280512_S16x512_S16x1281024_d1 : Shape.Concatenates [S16x1280512, S16x512] S16x1281024 1
  pads_S16x1281024_S16x1573376_000_02923520 : S16x1281024.Pads (![0, 0] : Fin 2 → Nat) ![0, 292352] ![0, 0] S16x1573376
  h_S_ : 0 < S_.numel
  shapeCasts_S16x1573376_S16x3073x512 : S16x1573376.ShapeCasts S16x3073x512
  slices_S16x3073x512_S16x3072x512_0_1_0 : S16x3073x512.Slices ![0, 1, 0] S16x3072x512
  slices_S1026x1024_S1026x512_0_0 : S1026x1024.Slices ![0, 0] S1026x512
  bitsLt_bf16_f32 : FTy.bits .bf16 < FTy.bits .f32
  slices_S1026x1024_S1026x512_0_512 : S1026x1024.Slices ![0, 512] S1026x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1026x512_S1026x512_0_0 : ∀ a, (![0, 0] : Fin 2 → Nat) a + S1026x512.size a ≤ S1026x512.size a
  h_S1026x512 : 0 < S1026x512.numel
  shapeCasts_S1026x512_S1026x512 : S1026x512.ShapeCasts S1026x512
  slices_S1026x1024_o0_0_S513x1024 : S1026x1024.Slices ![0, 0] S513x1024
  inb_S1x513x1024_S1x513x1024_0_0_0 : ∀ a, (![0, 0, 0] : Fin 3 → Nat) a + S1x513x1024.size a ≤ S1x513x1024.size a
  h_S1x513x1024 : 0 < S1x513x1024.numel
  shapeCasts_S1x513x1024_S513x1024 : S1x513x1024.ShapeCasts S513x1024
  shapeCasts_S513x1024_S1x513x1024 : S513x1024.ShapeCasts S1x513x1024
  slices_S1026x1024_o513_0_S513x1024 : S1026x1024.Slices ![513, 0] S513x1024
  slices_S16x513x3072_S16x513x2501_0_0_0 : S16x513x3072.Slices ![0, 0, 0] S16x513x2501
  dot_S1026x512_S1024x512_S1026x1024_1_1_0_0_n_n_wf : DotDims.WF S1026x512 S1024x512 S1026x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x1024x512.size a < S16x3073x512.size a
  hwx0_0 : ∀ i : grid0.Coords, EltTy.bits .f32 = 32 ∨ (Rect.unit (s := S16x3073x512) (fun a => cc0_transform_0 i a * S1x1024x512.size a) (fun a => (Pipeline.Clip.of (cc0_transform_0 i a) (S1x1024x512.size a) (S16x3073x512.size a)).extent (S1x1024x512.size a)) fun a => Pipeline.Clip.inb (Pipeline.Clip.ok_of (hstart0_0 i a))).WholeWords (EltTy.packing .f32)
  hwxs0_0 : ∀ i : grid0.Coords, EltTy.bits .f32 = 32 ∨ (Rect.unit (s := S1x1024x512) (fun _ => 0) (fun a => (Pipeline.Clip.of (cc0_transform_0 i a) (S1x1024x512.size a) (S16x3073x512.size a)).extent (S1x1024x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S16x3072x512.size a
  hwx0_1 : ∀ i : grid0.Coords, EltTy.bits .f32 = 32 ∨ (Rect.block (s := S16x3072x512) S1x1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1026x512.size a ≤ S1026x512.size a
  hwx0_2 : ∀ i : grid0.Coords, EltTy.bits .bf16 = 32 ∨ (Rect.block (s := S1026x512) S1026x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1026x512.size a ≤ S1026x512.size a
  hwx0_3 : ∀ i : grid0.Coords, EltTy.bits .bf16 = 32 ∨ (Rect.block (s := S1026x512) S1026x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x513x1024.size a ≤ S16x513x3072.size a
  hwx0_4 : ∀ i : grid0.Coords, EltTy.bits .f32 = 32 ∨ (Rect.block (s := S16x513x3072) S1x513x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x513x1024.size a ≤ S16x513x3072.size a
  hwx0_5 : ∀ i : grid0.Coords, EltTy.bits .f32 = 32 ∨ (Rect.block (s := S16x513x3072) S1x513x1024.size (cc0_transform_5 i) (hinb0_5 i)).WholeWords (EltTy.packing .f32)

variable [Facts₀]

def dot_S1026x512_S1024x512_S1026x1024_1_1_0_0_n_n : DotDims S1026x512 S1024x512 S1026x1024 where
  lhsContracting := [1]
  rhsContracting := [1]
  lhsNonContracting := [0]
  rhsNonContracting := [0]
  lhsBatch := []
  rhsBatch := []
  wf := dot_S1026x512_S1024x512_S1026x1024_1_1_0_0_n_n_wf

abbrev win0_0 : Pipeline.Window sig grid0 :=
  Pipeline.Window.ofSpecClip (Memref.whole main_v2) S1x1024x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v3) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1026x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1026x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1x513x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1x513x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x1280000 : Shape := ⟨2, ![16, 1280000]⟩
abbrev S1026x1024 : Shape := ⟨2, ![1026, 1024]⟩
abbrev S_ : Shape := ⟨0, ![]⟩
abbrev S16x1 : Shape := ⟨2, ![16, 1]⟩
abbrev S16x512 : Shape := ⟨2, ![16, 512]⟩
abbrev S16x1280512 : Shape := ⟨2, ![16, 1280512]⟩
abbrev S16x1281024 : Shape := ⟨2, ![16, 1281024]⟩
abbrev S2501 : Shape := ⟨1, ![2501]⟩
abbrev S2501x1 : Shape := ⟨2, ![2501, 1]⟩
abbrev S1024 : Shape := ⟨1, ![1024]⟩
abbrev S1x1024 : Shape := ⟨2, ![1, 1024]⟩
abbrev S2501x1024 : Shape := ⟨2, ![2501, 1024]⟩
abbrev S2501x1024x1 : Shape := ⟨3, ![2501, 1024, 1]⟩
abbrev S16x2501x1024 : Shape := ⟨3, ![16, 2501, 1024]⟩
abbrev S1026x16x2501 : Shape := ⟨3, ![1026, 16, 2501]⟩
abbrev S16x1026x2501 : Shape := ⟨3, ![16, 1026, 2501]⟩
abbrev S16x513x2501 : Shape := ⟨3, ![16, 513, 2501]⟩

abbrev nBuf : Space → Nat
  | .hbm => 34
  | .vmem => 0
  | .smem => 0
  | _ => 0

abbrev bufTy : (tb : Table) → Fin (tcTables nBuf tb) → BufTy
  | .hbm, ⟨0, _⟩ => ⟨S16x1280000, .f32⟩
  | .hbm, ⟨1, _⟩ => ⟨S1026x1024, .f32⟩
  | .hbm, ⟨2, _⟩ => ⟨S_, .i32⟩
  | .hbm, ⟨3, _⟩ => ⟨S16x1, .f32⟩
  | .hbm, ⟨4, _⟩ => ⟨S16x512, .f32⟩
  | .hbm, ⟨5, _⟩ => ⟨S16x512, .f32⟩
  | .hbm, ⟨6, _⟩ => ⟨S16x1280512, .f32⟩
  | .hbm, ⟨7, _⟩ => ⟨S16x1, .f32⟩
  | .hbm, ⟨8, _⟩ => ⟨S16x512, .f32⟩
  | .hbm, ⟨9, _⟩ => ⟨S16x512, .f32⟩
  | .hbm, ⟨10, _⟩ => ⟨S16x1281024, .f32⟩
  | .hbm, ⟨11, _⟩ => ⟨S2501, .i32⟩
  | .hbm, ⟨12, _⟩ => ⟨S2501x1, .i32⟩
  | .hbm, ⟨13, _⟩ => ⟨S_, .i32⟩
  | .hbm, ⟨14, _⟩ => ⟨S2501x1, .i32⟩
  | .hbm, ⟨15, _⟩ => ⟨S2501x1, .i32⟩
  | .hbm, ⟨16, _⟩ => ⟨S1024, .i32⟩
  | .hbm, ⟨17, _⟩ => ⟨S1x1024, .i32⟩
  | .hbm, ⟨18, _⟩ => ⟨S2501x1024, .i32⟩
  | .hbm, ⟨19, _⟩ => ⟨S2501x1024, .i32⟩
  | .hbm, ⟨20, _⟩ => ⟨S2501x1024, .i32⟩
  | .hbm, ⟨21, _⟩ => ⟨S_, .i32⟩
  | .hbm, ⟨22, _⟩ => ⟨S2501x1024, .i32⟩
  | .hbm, ⟨23, _⟩ => ⟨S2501x1024, .i1⟩
  | .hbm, ⟨24, _⟩ => ⟨S_, .i32⟩
  | .hbm, ⟨25, _⟩ => ⟨S2501x1024, .i32⟩
  | .hbm, ⟨26, _⟩ => ⟨S2501x1024, .i32⟩
  | .hbm, ⟨27, _⟩ => ⟨S2501x1024, .i32⟩
  | .hbm, ⟨28, _⟩ => ⟨S2501x1024x1, .i32⟩
  | .hbm, ⟨29, _⟩ => ⟨S16x2501x1024, .f32⟩
  | .hbm, ⟨30, _⟩ => ⟨S1026x16x2501, .f32⟩
  | .hbm, ⟨31, _⟩ => ⟨S16x1026x2501, .f32⟩
  | .hbm, ⟨32, _⟩ => ⟨S16x513x2501, .f32⟩
  | .hbm, ⟨33, _⟩ => ⟨S16x513x2501, .f32⟩
  | _, _ => ⟨S16x1280000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  slices_S16x1280000_S16x1_0_0 : S16x1280000.Slices ![0, 0] S16x1
  slices_S16x1280000_S16x512_0_1 : S16x1280000.Slices ![0, 1] S16x512
  concatenates_S16x512_S16x1280000_S16x1280512_d1 : Shape.Concatenates [S16x512, S16x1280000] S16x1280512 1
  slices_S16x1280512_S16x1_0_1280511 : S16x1280512.Slices ![0, 1280511] S16x1
  slices_S16x1280512_S16x512_0_1279999 : S16x1280512.Slices ![0, 1279999] S16x512
  concatenates_S16x1280512_S16x512_S16x1281024_d1 : Shape.Concatenates [S16x1280512, S16x512] S16x1281024 1
  bcast_S2501_S2501x1_0 : S2501.BroadcastsInDim S2501x1 (![0] : Fin 1 → Fin S2501x1.rank)
  bcast_S_S2501x1 : S_.BroadcastsInDim S2501x1 (![] : Fin 0 → Fin S2501x1.rank)
  bcast_S1024_S1x1024_1 : S1024.BroadcastsInDim S1x1024 (![1] : Fin 1 → Fin S1x1024.rank)
  bcast_S2501x1_S2501x1024_0_1 : S2501x1.BroadcastsInDim S2501x1024 (![0, 1] : Fin 2 → Fin S2501x1024.rank)
  bcast_S1x1024_S2501x1024_0_1 : S1x1024.BroadcastsInDim S2501x1024 (![0, 1] : Fin 2 → Fin S2501x1024.rank)
  bcast_S_S2501x1024 : S_.BroadcastsInDim S2501x1024 (![] : Fin 0 → Fin S2501x1024.rank)
  bcast_S2501x1024_S2501x1024x1_0_1 : S2501x1024.BroadcastsInDim S2501x1024x1 (![0, 1] : Fin 2 → Fin S2501x1024x1.rank)
  transposes_S1026x16x2501_S16x1026x2501_1_0_2 : S1026x16x2501.Transposes [1, 0, 2] S16x1026x2501
  slices_S16x1026x2501_S16x513x2501_0_0_0 : S16x1026x2501.Slices ![0, 0, 0] S16x513x2501
  slices_S16x1026x2501_S16x513x2501_0_513_0 : S16x1026x2501.Slices ![0, 513, 0] S16x513x2501
  gather_S16x1281024_S2501x1024x1_S16x2501x1024_0_1_n_n_1_2_161_wf : GatherDims.WF S16x1281024 S2501x1024x1 S16x2501x1024 [0] [1] [] [1] [] 2 ![16, 1]
  dot_S1026x1024_S16x2501x1024_S1026x16x2501_1_2_0_01_n_n_wf : DotDims.WF S1026x1024 S16x2501x1024 S1026x16x2501 [1] [2] [0] [0, 1] [] []

variable [Facts₀]

def gather_S16x1281024_S2501x1024x1_S16x2501x1024_0_1_n_n_1_2_161 : GatherDims S16x1281024 S2501x1024x1 S16x2501x1024 where
  offsetDims := [0]
  collapsedSliceDims := [1]
  operandBatchingDims := []
  startIndicesBatchingDims := []
  startIndexMap := [1]
  indexVectorDim := 2
  sliceSizes := ![16, 1]
  wf := gather_S16x1281024_S2501x1024x1_S16x2501x1024_0_1_n_n_1_2_161_wf
def dot_S1026x1024_S16x2501x1024_S1026x16x2501_1_2_0_01_n_n : DotDims S1026x1024 S16x2501x1024 S1026x16x2501 where
  lhsContracting := [1]
  rhsContracting := [2]
  lhsNonContracting := [0]
  rhsNonContracting := [0, 1]
  lhsBatch := []
  rhsBatch := []
  wf := dot_S1026x1024_S16x2501x1024_S1026x16x2501_1_2_0_01_n_n_wf

class Facts : Prop extends Facts₀ where

variable [Facts]
-- ==== Proof.BodyK.lean ====
/-
  The frame of the kernel program: every weakly fair execution of @main terminates without a fault and leaves the
  two argument arrays as launched.

  The pallas_call runs a grid of 16 × 3 points.  At point (b, j) the body is handed two blocks of 1024 half-frames
  (512 samples each) of row b of the padded signal — rows 1024·j ‥ 1024·j + 1023 of the half-frame array, and the same
  rows of that array shifted up by one half-frame — and the two halves of the windowed DFT matrix; it multiplies each
  half of the matrix with the matching block, adds the two products, and stores rows 0‥512 of the sum into the first
  result's block and rows 513‥1025 into the second's.

  The half-frame array has 3073 rows, which blocks of 1024 rows do not tile, so its window is stated as one whose
  last block could overhang the array.  On this grid no block does: the three blocks of a row end at rows 1024, 2048
  and 3072, all inside the array (`noCut`, decided over the grid).  Hence the fetch fills the whole staging buffer
  with the block (`before0`), and what the body is handed is determined at every point.  The body loads its four
  inputs whole, and stores each result whole: what it leaves in a result's buffer is the stored value as a function
  of the four input blocks (`outRe`, `outIm`), and the inputs' buffers are left as found.
-/
import proofs.«113678_j12584254177799_2_alg».proof.Proof.Gen.Kernel.Frame
import proofs.«113678_j12584254177799_2_alg».proof.Proof.Gen.Kernel.Skeleton
import Idealize.ShloMosaic.Lib.Pipeline.FrameBody
import Idealize.ShloMosaic.Lib.Pipeline.FrameSuffix
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rSeg : Rect S1x1024x512 := Rect.unit (s := S1x1024x512) ![0, 0, 0] S1x1024x512.size inb_S1x1024x512_S1x1024x512_0_0_0
abbrev rMat : Rect S1026x512 := Rect.unit (s := S1026x512) ![0, 0] S1026x512.size inb_S1026x512_S1026x512_0_0
abbrev rOut : Rect S1x513x1024 := Rect.unit (s := S1x513x1024) ![0, 0, 0] S1x513x1024.size inb_S1x513x1024_S1x513x1024_0_0_0

/-! ## What the body leaves in each result's buffer -/

/-- The first result's buffer after the body: its one store, of rows 0‥512 of the summed products. -/
def outRe (x0 x1 : Vec F S1x1024x512 .f32) (x2 x3 : Vec F S1026x512 .bf16) : Vec F S1x513x1024 .f32 :=
  View.canon [⟨rOut, k0_pay2 (View.ld x0 rSeg) (View.ld x1 rSeg) (View.ld x2 rMat) (View.ld x3 rMat)⟩]

/-- The second result's buffer after the body: its one store, of rows 513‥1025 of the summed products. -/
def outIm (x0 x1 : Vec F S1x1024x512 .f32) (x2 x3 : Vec F S1026x512 .bf16) : Vec F S1x513x1024 .f32 :=
  View.canon [⟨rOut, k0_pay3 (View.ld x0 rSeg) (View.ld x1 rSeg) (View.ld x2 rMat) (View.ld x3 rMat)⟩]

/-- A whole store covers the buffer. -/
theorem coverOut (p0 : Vec F S1x513x1024 .f32) (y : S1x513x1024.Idx) :
    ∃ pc ∈ ([⟨rOut, p0⟩] : List (View.Piece (Elt F) S1x513x1024 .f32)), y ∈ pc.1.set :=
  View.cover_of_tiled [⟨rOut, p0⟩] S1x513x1024.size (by rfl) y

/-! ## The body's triple -/

set_option maxHeartbeats 1000000 in
/-- The body on whole staging memrefs — the four inputs' at contents `x0 … x3`, the two results' at anything — runs to
    the continuation holding the inputs' as they were and the results' at `outRe` and `outIm` of the inputs'. -/
theorem sound_kernel (c : Dev nD) (E : Set ℕ) (i : grid0.Coords)
    (arg2 : Memref sig .tc .vmem S1x1024x512 .f32) (harg2 : arg2.IsWhole) (arg3 : Memref sig .tc .vmem S1x1024x512 .f32) (harg3 : arg3.IsWhole)
    (arg4 : Memref sig .tc .vmem S1026x512 .bf16) (harg4 : arg4.IsWhole) (arg5 : Memref sig .tc .vmem S1026x512 .bf16) (harg5 : arg5.IsWhole)
    (arg6 : Memref sig .tc .vmem S1x513x1024 .f32) (harg6 : arg6.IsWhole) (arg7 : Memref sig .tc .vmem S1x513x1024 .f32) (harg7 : arg7.IsWhole)
    (x0 x1 : Vec F S1x1024x512 .f32) (x2 x3 : Vec F S1026x512 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outRe x0 x1 x2 x3) ∗ owns (c : Thread nD τ) arg7 fullShare (outIm x0 x1 x2 x3)) -∗ K ⟨⟩))
      ⊢ wp frame (wpE (defs₀ (F := F)) Variants.none c none) E
          (cc0__stft_kernel i arg2 harg2 arg3 harg3 arg4 harg4 arg5 harg5 arg6 harg6 arg7 harg7) K := by
  simp only [cc0__stft_kernel_eq_skeleton]; unfold cc0__stft_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverOut _)
  · iexists _; isplitr
    swap; · iexact H5
    ipureintro
    exact View.read_writes_eq_canon _ _ _ (coverOut _)

/-! ## The pipeline's proof data -/

/-- On this grid no block of the half-frame array overhangs it: block j of a row ends at row 1024·(j + 1) ≤ 3072 < 3073. -/
theorem noCut : ∀ (i : grid0.Coords) a, (cfg0.win 0).clip i a = none := by decide +kernel

/-- The first input's block at point `t` as a whole staging buffer (nothing of the buffer lies outside the block:
    `noCut`; the filler is never read). -/
def seg0 (c : Dev nD) (t : Fin cfg0.N) : S1x1024x512.Idx → Elt F .f32 :=
  (cfg0.win 0).fill (cfg0.grid.coords t) (fun _ => Scalar.ofBits .f32 0#32) (iblk m c 0 t)

/-- The proof data of the pipeline on core `c`: the arrays as the region finds them; after the body at point `t` each
    input's buffer at its block and each result's at the stored value of the four input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => seg0 m c t
    | ⟨1, _⟩ => iblk m c 1 t
    | ⟨2, _⟩ => iblk m c 2 t
    | ⟨3, _⟩ => iblk m c 3 t
    | ⟨4, _⟩ => outRe (seg0 m c t) (iblk m c 1 t) (iblk m c 2 t) (iblk m c 3 t)
    | ⟨5, _⟩ => outIm (seg0 m c t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = seg0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outRe (seg0 m c t) (iblk m c 1 t) (iblk m c 2 t) (iblk m c 3 t) := by dsimp only [dats]
theorem after5 (c : Dev nD) (t : Fin cfg0.N) :
    (dats m 0 c).after 5 t = outIm (seg0 m c t) (iblk m c 1 t) (iblk m c 2 t) (iblk m c 3 t) := by dsimp only [dats]

/-- The first input is fetched at every point, and the fetch fills the whole buffer: it holds the block. -/
theorem before0 (c : Dev nD) (t : Fin cfg0.N) (d) : (dats m 0 c).before 0 t d = seg0 m c t := by
  rw [(dats m 0 c).before_fetched 0 t (fetch0_0 t)]
  unfold Dat.fetched Dat.blockOf seg0 iblk
  rw [A_eq]
  exact Pipeline.fill_of_clip_none (cfg := cfg0) 0 (cfg0.grid.coords t) (noCut _) _ _ _
/-- The other inputs hold their blocks at every point, fetched there or not. -/
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (seg0 m c t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any float values, from any memory with zero counters: every weakly fair execution of @main terminates, and
    every final state has each array of the pipeline at what the proof data's write-backs leave and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyI.lean ====
/-
  The frame of the kernel program: every weakly fair execution of @main terminates without a fault and leaves the
  two argument arrays as launched.

  The pallas_call runs a grid of 16 × 3 points.  At point (b, j) the body is handed two blocks of 1024 half-frames
  (512 samples each) of row b of the padded signal — rows 1024·j ‥ 1024·j + 1023 of the half-frame array, and the same
  rows of that array shifted up by one half-frame — and the two halves of the windowed DFT matrix; it multiplies each
  half of the matrix with the matching block, adds the two products, and stores rows 0‥512 of the sum into the first
  result's block and rows 513‥1025 into the second's.

  The half-frame array has 3073 rows, which blocks of 1024 rows do not tile, so its window is stated as one whose
  last block could overhang the array.  On this grid no block does: the three blocks of a row end at rows 1024, 2048
  and 3072, all inside the array (`noCut`, decided over the grid).  Hence the fetch fills the whole staging buffer
  with the block (`before0`), and what the body is handed is determined at every point.  The body loads its four
  inputs whole, and stores each result whole: what it leaves in a result's buffer is the stored value as a function
  of the four input blocks (`outRe`, `outIm`), and the inputs' buffers are left as found.
-/
import proofs.«113678_j12584254177799_2_alg».proof.Proof.Gen.KernelIdeal.Frame
import proofs.«113678_j12584254177799_2_alg».proof.Proof.Gen.KernelIdeal.Skeleton
import Idealize.ShloMosaic.Lib.Pipeline.FrameBody
import Idealize.ShloMosaic.Lib.Pipeline.FrameSuffix
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rSeg : Rect S1x1024x512 := Rect.unit (s := S1x1024x512) ![0, 0, 0] S1x1024x512.size inb_S1x1024x512_S1x1024x512_0_0_0
abbrev rMat : Rect S1026x512 := Rect.unit (s := S1026x512) ![0, 0] S1026x512.size inb_S1026x512_S1026x512_0_0
abbrev rOut : Rect S1x513x1024 := Rect.unit (s := S1x513x1024) ![0, 0, 0] S1x513x1024.size inb_S1x513x1024_S1x513x1024_0_0_0

/-! ## What the body leaves in each result's buffer -/

/-- The first result's buffer after the body: its one store, of rows 0‥512 of the summed products. -/
def outRe (x0 x1 : Vec F S1x1024x512 .f32) (x2 x3 : Vec F S1026x512 .bf16) : Vec F S1x513x1024 .f32 :=
  View.canon [⟨rOut, k0_pay2 (View.ld x0 rSeg) (View.ld x1 rSeg) (View.ld x2 rMat) (View.ld x3 rMat)⟩]

/-- The second result's buffer after the body: its one store, of rows 513‥1025 of the summed products. -/
def outIm (x0 x1 : Vec F S1x1024x512 .f32) (x2 x3 : Vec F S1026x512 .bf16) : Vec F S1x513x1024 .f32 :=
  View.canon [⟨rOut, k0_pay3 (View.ld x0 rSeg) (View.ld x1 rSeg) (View.ld x2 rMat) (View.ld x3 rMat)⟩]

/-- A whole store covers the buffer. -/
theorem coverOut (p0 : Vec F S1x513x1024 .f32) (y : S1x513x1024.Idx) :
    ∃ pc ∈ ([⟨rOut, p0⟩] : List (View.Piece (Elt F) S1x513x1024 .f32)), y ∈ pc.1.set :=
  View.cover_of_tiled [⟨rOut, p0⟩] S1x513x1024.size (by rfl) y

/-! ## The body's triple -/

set_option maxHeartbeats 1000000 in
/-- The body on whole staging memrefs — the four inputs' at contents `x0 … x3`, the two results' at anything — runs to
    the continuation holding the inputs' as they were and the results' at `outRe` and `outIm` of the inputs'. -/
theorem sound_kernel (c : Dev nD) (E : Set ℕ) (i : grid0.Coords)
    (arg2 : Memref sig .tc .vmem S1x1024x512 .f32) (harg2 : arg2.IsWhole) (arg3 : Memref sig .tc .vmem S1x1024x512 .f32) (harg3 : arg3.IsWhole)
    (arg4 : Memref sig .tc .vmem S1026x512 .bf16) (harg4 : arg4.IsWhole) (arg5 : Memref sig .tc .vmem S1026x512 .bf16) (harg5 : arg5.IsWhole)
    (arg6 : Memref sig .tc .vmem S1x513x1024 .f32) (harg6 : arg6.IsWhole) (arg7 : Memref sig .tc .vmem S1x513x1024 .f32) (harg7 : arg7.IsWhole)
    (x0 x1 : Vec F S1x1024x512 .f32) (x2 x3 : Vec F S1026x512 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outRe x0 x1 x2 x3) ∗ owns (c : Thread nD τ) arg7 fullShare (outIm x0 x1 x2 x3)) -∗ K ⟨⟩))
      ⊢ wp frame (wpE (defs₀ (F := F)) Variants.none c none) E
          (cc0__stft_kernel i arg2 harg2 arg3 harg3 arg4 harg4 arg5 harg5 arg6 harg6 arg7 harg7) K := by
  simp only [cc0__stft_kernel_eq_skeleton]; unfold cc0__stft_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverOut _)
  · iexists _; isplitr
    swap; · iexact H5
    ipureintro
    exact View.read_writes_eq_canon _ _ _ (coverOut _)

/-! ## The pipeline's proof data -/

/-- On this grid no block of the half-frame array overhangs it: block j of a row ends at row 1024·(j + 1) ≤ 3072 < 3073. -/
theorem noCut : ∀ (i : grid0.Coords) a, (cfg0.win 0).clip i a = none := by decide +kernel

/-- The first input's block at point `t` as a whole staging buffer (nothing of the buffer lies outside the block:
    `noCut`; the filler is never read). -/
def seg0 (c : Dev nD) (t : Fin cfg0.N) : S1x1024x512.Idx → Elt F .f32 :=
  (cfg0.win 0).fill (cfg0.grid.coords t) (fun _ => Scalar.ofBits .f32 0#32) (iblk m c 0 t)

/-- The proof data of the pipeline on core `c`: the arrays as the region finds them; after the body at point `t` each
    input's buffer at its block and each result's at the stored value of the four input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => seg0 m c t
    | ⟨1, _⟩ => iblk m c 1 t
    | ⟨2, _⟩ => iblk m c 2 t
    | ⟨3, _⟩ => iblk m c 3 t
    | ⟨4, _⟩ => outRe (seg0 m c t) (iblk m c 1 t) (iblk m c 2 t) (iblk m c 3 t)
    | ⟨5, _⟩ => outIm (seg0 m c t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = seg0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outRe (seg0 m c t) (iblk m c 1 t) (iblk m c 2 t) (iblk m c 3 t) := by dsimp only [dats]
theorem after5 (c : Dev nD) (t : Fin cfg0.N) :
    (dats m 0 c).after 5 t = outIm (seg0 m c t) (iblk m c 1 t) (iblk m c 2 t) (iblk m c 3 t) := by dsimp only [dats]

/-- The first input is fetched at every point, and the fetch fills the whole buffer: it holds the block. -/
theorem before0 (c : Dev nD) (t : Fin cfg0.N) (d) : (dats m 0 c).before 0 t d = seg0 m c t := by
  rw [(dats m 0 c).before_fetched 0 t (fetch0_0 t)]
  unfold Dat.fetched Dat.blockOf seg0 iblk
  rw [A_eq]
  exact Pipeline.fill_of_clip_none (cfg := cfg0) 0 (cfg0.grid.coords t) (noCut _) _ _ _
/-- The other inputs hold their blocks at every point, fetched there or not. -/
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (seg0 m c t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any float values, from any memory with zero counters: every weakly fair execution of @main terminates, and
    every final state has each array of the pipeline at what the proof data's write-backs leave and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KPay.lean ====
/-
  The body's arithmetic read at one index, over the extended reals.

  With `a`, `b` the two blocks of 1024 half-frames the body loads (as [1, 1024, 512] arrays) and `k`, `l` the two halves
  of the windowed DFT matrix (as [1026, 512] arrays), the body forms the two matrix products contracting the
  512 samples of a half-frame and adds them: entry (r, q) of the sum is

      Σ_{n < 512} k[r, n] · a[0, q, n]  +  Σ_{n < 512} l[r, n] · b[0, q, n].

  Over the extended reals a change of float format is the identity and a matrix product into a zero accumulator is the
  plain sum of products.  The first stored value is rows 0‥512 of that sum under a leading unit axis, the second rows
  513‥1025.
-/
import proofs.«113678_j12584254177799_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen
open Idealize.ShloMosaic Idealize.ShloMosaic.ValueIdx

/-- The matrix products' dimension numbers: both operands contract their axis 1, of extent 512. -/
abbrev D : DotDims S1026x512 S1024x512 S1026x1024 := dot_S1026x512_S1024x512_S1026x1024_1_1_0_0_n_n

theorem D_rank : D.contr.rank = 1 := by rfl
theorem D_size : D.contr.size ⟨0, by rw [D_rank]; exact Nat.one_pos⟩ = 512 := by rfl

/-- The contraction's index set is the 512 samples of a half-frame. -/
abbrev e512 : D.contr.Idx ≃ Fin 512 := contrEquiv1 D 512 D_rank D_size

/-- At entry (r, q) and sample n the left operand is read at (r, n), -/
theorem lhs_at (r : Fin 1026) (q : Fin 1024) (n : Fin 512) : D.lhsIdx (ix2 r q) (e512.symm n) = ix2 r n := by
  funext a
  apply Fin.ext
  match a with
  | ⟨0, _⟩ => simp [DotDims.lhsIdx, D, dot_S1026x512_S1024x512_S1026x1024_1_1_0_0_n_n]; rfl
  | ⟨1, _⟩ =>
    refine (D.lhsIdx_val_of_single (cl := (1 : Fin 2)) rfl (ix2 r q) (e512.symm n)).trans ?_
    exact contrEquiv1_symm_val D 512 D_rank D_size n

/-- and the right operand at (q, n). -/
theorem rhs_at (r : Fin 1026) (q : Fin 1024) (n : Fin 512) : D.rhsIdx (ix2 r q) (e512.symm n) = ix2 q n := by
  funext a
  apply Fin.ext
  match a with
  | ⟨0, _⟩ => simp [DotDims.rhsIdx, D, dot_S1026x512_S1024x512_S1026x1024_1_1_0_0_n_n]; rfl
  | ⟨1, _⟩ =>
    refine (D.rhsIdx_val_of_single (cr := (1 : Fin 2)) rfl (ix2 r q) (e512.symm n)).trans ?_
    exact contrEquiv1_symm_val D 512 D_rank D_size n

/-- One product at an entry: the sum over a half-frame's samples. -/
theorem prod_at (k : FVec Ideal S1026x512 .bf16) (a : FVec Ideal S1024x512 .bf16) (r : Fin 1026) (q : Fin 1024) :
    matmul D none k a (constant (F := Ideal) S1026x1024 .f32 0x00000000#32) (ix2 r q)
      = ∑ n : Fin 512, k (ix2 r n) * a (ix2 q n) := by
  refine (Ideal.matmul_constant_zero_apply D none k a (ix2 r q)).trans ?_
  refine (Equiv.sum_comp e512.symm _).symm.trans ?_
  refine Finset.sum_congr rfl fun n _ => ?_
  rw [lhs_at, rhs_at]

/-- The summed products at entry (r, q). -/
theorem sum_at (a b : Vec Ideal S1x1024x512 .f32) (k l : Vec Ideal S1026x512 .bf16) (r : Fin 1026) (q : Fin 1024) :
    k0_pay1 (F := Ideal) a b k l (ix2 r q)
      = ∑ n : Fin 512, k (ix2 r n) * a (ix3 (0 : Fin 1) q n) + ∑ n : Fin 512, l (ix2 r n) * b (ix3 (0 : Fin 1) q n) := by
  unfold k0_pay1
  refine congrArg₂ (· + ·) ?_ ?_
  · refine (prod_at _ _ r q).trans (Finset.sum_congr rfl fun n _ => ?_)
    rw [shapeCast_self]
    exact congrArg (k (ix2 r n) * ·) (shapeCast_1ab_ab_apply a _ q n)
  · refine (prod_at _ _ r q).trans (Finset.sum_congr rfl fun n _ => ?_)
    rw [shapeCast_self]
    exact congrArg (l (ix2 r n) * ·) (shapeCast_1ab_ab_apply b _ q n)

/-- The first stored value at (u, r, q), r < 513: row r of the summed products. -/
theorem re_at (a b : Vec Ideal S1x1024x512 .f32) (k l : Vec Ideal S1026x512 .bf16) (u : Fin 1) (r : Fin 513) (q : Fin 1024) :
    k0_pay2 (F := Ideal) a b k l (ix3 u r q) = k0_pay1 (F := Ideal) a b k l (ix2 ⟨r.val, by omega⟩ q) := by
  unfold k0_pay2
  refine (shapeCast_ab_1ab_apply _ _ u r q).trans ?_
  refine extractStridedSlice_apply _ _ _ (ix2 r q) (ix2 ⟨r.val, by omega⟩ q) fun a => ?_
  match a with
  | ⟨0, _⟩ => show r.val = 0 + r.val; omega
  | ⟨1, _⟩ => show q.val = 0 + q.val; omega

/-- The second stored value at (u, r, q), r < 513: row 513 + r of the summed products. -/
theorem im_at (a b : Vec Ideal S1x1024x512 .f32) (k l : Vec Ideal S1026x512 .bf16) (u : Fin 1) (r : Fin 513) (q : Fin 1024) :
    k0_pay3 (F := Ideal) a b k l (ix3 u r q) = k0_pay1 (F := Ideal) a b k l (ix2 ⟨r.val + 513, by omega⟩ q) := by
  unfold k0_pay3
  refine (shapeCast_ab_1ab_apply _ _ u r q).trans ?_
  refine extractStridedSlice_apply _ _ _ (ix2 r q) (ix2 ⟨r.val + 513, by omega⟩ q) fun a => ?_
  match a with
  | ⟨0, _⟩ => show r.val + 513 = 513 + r.val; omega
  | ⟨1, _⟩ => show q.val = 0 + q.val; omega

end Cert.KernelIdeal.Pay

end
-- ==== Proof.KFun.lean ====
/-
  The result arrays of the kernel program as one function of its four operand arrays.

  With A₂ (3073 half-frames of 512 samples per row), A₃ (3072 half-frames per row) and the two matrix halves A₅, A₇,

      gsum b r s = Σ_{n < 512} A₅[r, n] · A₂[b, s, n]  +  Σ_{n < 512} A₇[r, n] · A₃[b, s, n]

  is bin r of the frame whose first half is half-frame s of A₂ and whose second half is half-frame s of A₃.  The first
  result array holds bins 0‥512 at every position s < 3072, the second bins 513‥1025.
-/
import proofs.«113678_j12584254177799_2_alg».proof.Proof.Gen.KernelIdeal
import Idealize.ShloMosaic.PureOps.Ideal
import Idealize.ShloMosaic.Lib.ValueIdx

noncomputable section

open scoped BigOperators

namespace Cert.KernelIdeal.Blocks

open Cert.KernelIdeal
open Idealize.ShloMosaic Idealize.ShloMosaic.ValueIdx

/-- Bin r of the frame made of half-frame s of A₂ and half-frame s of A₃, in row b. -/
def gsum (A2 : Vec Ideal S16x3073x512 .f32) (A3 : Vec Ideal S16x3072x512 .f32) (A5 A7 : Vec Ideal S1026x512 .bf16)
    (b : Fin 16) (r : Fin 1026) (s : Fin 3072) : EReal :=
  ∑ n : Fin 512, A5 (ix2 r n) * A2 (ix3 b ⟨s.val, by omega⟩ n) + ∑ n : Fin 512, A7 (ix2 r n) * A3 (ix3 b s n)

/-- The first result array: bins 0‥512. -/
def GRe (A2 : Vec Ideal S16x3073x512 .f32) (A3 : Vec Ideal S16x3072x512 .f32) (A5 A7 : Vec Ideal S1026x512 .bf16) :
    Vec Ideal S16x513x3072 .f32 := fun i =>
  gsum A2 A3 A5 A7 ⟨(i 0).val, (i 0).isLt⟩ ⟨(i 1).val, Nat.lt_of_lt_of_le (i 1).isLt (by decide)⟩ ⟨(i 2).val, (i 2).isLt⟩

/-- The second result array: bins 513‥1025. -/
def GIm (A2 : Vec Ideal S16x3073x512 .f32) (A3 : Vec Ideal S16x3072x512 .f32) (A5 A7 : Vec Ideal S1026x512 .bf16) :
    Vec Ideal S16x513x3072 .f32 := fun i =>
  gsum A2 A3 A5 A7 ⟨(i 0).val, (i 0).isLt⟩ ⟨(i 1).val + 513, Nat.add_lt_of_lt_sub (i 1).isLt⟩ ⟨(i 2).val, (i 2).isLt⟩

end Cert.KernelIdeal.Blocks

end
-- ==== Proof.KBlocks.lean ====
/-
  From blocks to arrays: what the two result arrays hold after the region, as one function of the four operand arrays.

  Write A₂ (3073 half-frames per row), A₃ (3072 half-frames per row), A₅ and A₇ (the two matrix halves) for the operand
  arrays as the region finds them.  For a row b, a bin r < 1026 and a half-frame position s < 3072 put

      gsum b r s = Σ_{n < 512} A₅[r, n] · A₂[b, s, n]  +  Σ_{n < 512} A₇[r, n] · A₃[b, s, n].

  At the grid point (b, j) the body is handed rows 1024·j ‥ 1024·j + 1023 of row b of A₂ and of A₃ and all of A₅ and A₇
  (`pt`: the printed index maps, decided over the grid), so entry (r, q) of the summed products is
  `gsum b r (1024·j + q)` (`core`), and the point writes back exactly the block (b, all bins, columns 1024·j ‥) of the
  array `GRe` (bins 0‥512) resp. `GIm` (bins 513‥1025) (`flushedRe`, `flushedIm`).  The 16 × 3 blocks tile the result
  arrays (`coverRe`, `coverIm`), so after the last write-back each result array is that function everywhere.
-/
import proofs.«113678_j12584254177799_2_alg».proof.Proof.BodyI
import proofs.«113678_j12584254177799_2_alg».proof.Proof.KPay
import proofs.«113678_j12584254177799_2_alg».proof.Proof.KFun

set_option maxRecDepth 16384

noncomputable section

open scoped BigOperators

namespace Cert.KernelIdeal.Blocks

open Cert.KernelIdeal Cert.KernelIdeal.Gen Cert.KernelIdeal.Body
open Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ)

/-! ## The grid's points -/

/-- Every point is a pair (b, j) of a row and a third of the half-frames, and the printed index maps send it to block
    (b, j, 0) of the two half-frame arrays, block (0, 0) of the matrix halves and block (b, 0, j) of the results. -/
theorem pt : ∀ t : Fin cfg0.N, ∃ (b : Fin 16) (j : Fin 3),
      win0_0.index t (0 : Fin 3) = b.val ∧ win0_0.index t (1 : Fin 3) = j.val ∧ win0_0.index t (2 : Fin 3) = 0
    ∧ win0_1.index t (0 : Fin 3) = b.val ∧ win0_1.index t (1 : Fin 3) = j.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = b.val ∧ win0_4.index t (1 : Fin 3) = 0 ∧ win0_4.index t (2 : Fin 3) = j.val
    ∧ win0_5.index t (0 : Fin 3) = b.val ∧ win0_5.index t (1 : Fin 3) = 0 ∧ win0_5.index t (2 : Fin 3) = j.val :=
  (by decide +kernel : ∀ t : Fin grid0.N, ∃ (b : Fin 16) (j : Fin 3), _)

/-- Every pair is some point's. -/
theorem onto : ∀ (b : Fin 16) (j : Fin 3), ∃ t : Fin cfg0.N,
      win0_4.index t (0 : Fin 3) = b.val ∧ win0_4.index t (1 : Fin 3) = 0 ∧ win0_4.index t (2 : Fin 3) = j.val
    ∧ win0_5.index t (0 : Fin 3) = b.val ∧ win0_5.index t (1 : Fin 3) = 0 ∧ win0_5.index t (2 : Fin 3) = j.val :=
  (by decide +kernel : ∀ (b : Fin 16) (j : Fin 3), ∃ t : Fin grid0.N, _)

/-! ## The input blocks read at an index

Each lemma is stated for an ARBITRARY array `A` under the window: which array it is plays no part in where the block's
element sits. -/

/-- Element (0, q, n) of the first input's buffer — the fetched block, filling the buffer — is the array's element
    at the block's offset plus (0, q, n). -/
theorem read0 (A : S16x3073x512.Idx → Elt Ideal .f32) (d : S1x1024x512.Idx → Elt Ideal .f32) (t : Fin cfg0.N) (b : Fin 16) (j : Fin 3)
    (e0 : win0_0.index t (0 : Fin 3) = b.val) (e1 : win0_0.index t (1 : Fin 3) = j.val) (e2 : win0_0.index t (2 : Fin 3) = 0)
    (q : Fin 1024) (n : Fin 512) :
    (cfg0.win 0).fill (cfg0.grid.coords t) d (((cfg0.win 0).blk t).view.read (Elt Ideal) A) (ix3 (0 : Fin 1) q n)
      = A (ix3 b ⟨1024 * j.val + q.val, by omega⟩ n) := by
  have hm : (cfg0.win 0).moved (cfg0.grid.coords t) (ix3 (0 : Fin 1) q n) = true :=
    ((cfg0.win 0).moved_iff _ _).mpr fun a => by
      have := ((ix3 (0 : Fin 1) q n : S1x1024x512.Idx) a).isLt; unfold Window.xsize; rw [noCut _ a]; exact this
  unfold Window.fill
  rw [dif_pos hm, View.read_apply]
  refine congrArg A (funext fun a => Fin.ext ?_)
  match a with
  | ⟨0, _⟩ => show win0_0.index t (0 : Fin 3) * 1 + 1 * 0 = b.val; omega
  | ⟨1, _⟩ => show win0_0.index t (1 : Fin 3) * 1024 + 1 * q.val = 1024 * j.val + q.val; omega
  | ⟨2, _⟩ => show win0_0.index t (2 : Fin 3) * 512 + 1 * n.val = n.val; omega

/-- The second input's block likewise. -/
theorem read1 (A : S16x3072x512.Idx → Elt Ideal .f32) (t : Fin cfg0.N) (b : Fin 16) (j : Fin 3)
    (e0 : win0_1.index t (0 : Fin 3) = b.val) (e1 : win0_1.index t (1 : Fin 3) = j.val) (e2 : win0_1.index t (2 : Fin 3) = 0)
    (q : Fin 1024) (n : Fin 512) :
    ((cfg0.win 1).blk t).view.read (Elt Ideal) A (ix3 (0 : Fin 1) q n) = A (ix3 b ⟨1024 * j.val + q.val, by omega⟩ n) := by
  rw [View.read_apply]
  refine congrArg A (funext fun a => Fin.ext ?_)
  match a with
  | ⟨0, _⟩ => show win0_1.index t (0 : Fin 3) * 1 + 1 * 0 = b.val; omega
  | ⟨1, _⟩ => show win0_1.index t (1 : Fin 3) * 1024 + 1 * q.val = 1024 * j.val + q.val; omega
  | ⟨2, _⟩ => show win0_1.index t (2 : Fin 3) * 512 + 1 * n.val = n.val; omega

/-- The matrix halves' blocks are the whole arrays. -/
theorem read2 (A : S1026x512.Idx → Elt Ideal .bf16) (t : Fin cfg0.N) (e0 : win0_2.index t (0 : Fin 2) = 0) (e1 : win0_2.index t (1 : Fin 2) = 0)
    (r : Fin 1026) (n : Fin 512) : ((cfg0.win 2).blk t).view.read (Elt Ideal) A (ix2 r n) = A (ix2 r n) := by
  rw [View.read_apply]
  refine congrArg A (funext fun a => Fin.ext ?_)
  match a with
  | ⟨0, _⟩ => show win0_2.index t (0 : Fin 2) * 1026 + 1 * r.val = r.val; omega
  | ⟨1, _⟩ => show win0_2.index t (1 : Fin 2) * 512 + 1 * n.val = n.val; omega

theorem read3 (A : S1026x512.Idx → Elt Ideal .bf16) (t : Fin cfg0.N) (e0 : win0_3.index t (0 : Fin 2) = 0) (e1 : win0_3.index t (1 : Fin 2) = 0)
    (r : Fin 1026) (n : Fin 512) : ((cfg0.win 3).blk t).view.read (Elt Ideal) A (ix2 r n) = A (ix2 r n) := by
  rw [View.read_apply]
  refine congrArg A (funext fun a => Fin.ext ?_)
  match a with
  | ⟨0, _⟩ => show win0_3.index t (0 : Fin 2) * 1026 + 1 * r.val = r.val; omega
  | ⟨1, _⟩ => show win0_3.index t (1 : Fin 2) * 512 + 1 * n.val = n.val; omega

/-! ## The summed products at a point -/

/-- Entry (r, q) of the summed products at the point (b, j) is bin r of the frame at half-frame position 1024·j + q. -/
theorem core (c : Dev nD) (t : Fin cfg0.N) (b : Fin 16) (j : Fin 3)
    (e00 : win0_0.index t (0 : Fin 3) = b.val) (e01 : win0_0.index t (1 : Fin 3) = j.val) (e02 : win0_0.index t (2 : Fin 3) = 0)
    (e10 : win0_1.index t (0 : Fin 3) = b.val) (e11 : win0_1.index t (1 : Fin 3) = j.val) (e12 : win0_1.index t (2 : Fin 3) = 0)
    (e20 : win0_2.index t (0 : Fin 2) = 0) (e21 : win0_2.index t (1 : Fin 2) = 0)
    (e30 : win0_3.index t (0 : Fin 2) = 0) (e31 : win0_3.index t (1 : Fin 2) = 0)
    (r : Fin 1026) (q : Fin 1024) :
    k0_pay1 (F := Ideal) (seg0 m c t) (iblk m c 1 t) (iblk m c 2 t) (iblk m c 3 t) (ix2 r q)
      = gsum (V m c main_v2) (V m c main_v3) (V m c main_v5) (V m c main_v7) b r ⟨1024 * j.val + q.val, by omega⟩ := by
  refine (Pay.sum_at (seg0 m c t) (iblk m c 1 t) (iblk m c 2 t) (iblk m c 3 t) r q).trans ?_
  unfold gsum
  refine congrArg₂ (· + ·) (Finset.sum_congr rfl fun n _ => congrArg₂ (· * ·) ?_ ?_)
    (Finset.sum_congr rfl fun n _ => congrArg₂ (· * ·) ?_ ?_)
  · unfold iblk; exact read2 (V m c main_v5) t e20 e21 r n
  · unfold seg0 iblk; exact read0 (V m c main_v2) _ t b j e00 e01 e02 q n
  · unfold iblk; exact read3 (V m c main_v7) t e30 e31 r n
  · unfold iblk; exact read1 (V m c main_v3) t b j e10 e11 e12 q n

/-! ## What a point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- The first result's buffer after the body is the first stored value of the four input blocks, -/
theorem outRe_eq (x0 x1 : Vec Ideal S1x1024x512 .f32) (x2 x3 : Vec Ideal S1026x512 .bf16) :
    outRe x0 x1 x2 x3 = k0_pay2 (F := Ideal) x0 x1 x2 x3 := by
  unfold outRe
  rw [View.canon_unit_zero hz3]
  simp only [View.ld_unit_zero (S := S1x1024x512) hz3, View.ld_unit_zero (S := S1026x512) hz2]

/-- and the second's the second stored value. -/
theorem outIm_eq (x0 x1 : Vec Ideal S1x1024x512 .f32) (x2 x3 : Vec Ideal S1026x512 .bf16) :
    outIm x0 x1 x2 x3 = k0_pay3 (F := Ideal) x0 x1 x2 x3 := by
  unfold outIm
  rw [View.canon_unit_zero hz3]
  simp only [View.ld_unit_zero (S := S1x1024x512) hz3, View.ld_unit_zero (S := S1026x512) hz2]

/-- What point `t` writes back to the first result array is block `t` of `GRe` of the operand arrays. -/
theorem flushedRe (c : Dev nD) (t : Fin cfg0.N) :
    (dats m 0 c).flushed 4 t
      = ((cfg0.win 4).blk t).view.read (Elt Ideal) (GRe (V m c main_v2) (V m c main_v3) (V m c main_v5) (V m c main_v7)) := by
  show (cfg0.win 4).cut (grid0.coords t) ((dats m 0 c).after 4 t) = _
  rw [after4, outRe_eq]
  obtain ⟨b, j, e00, e01, e02, e10, e11, e12, e20, e21, e30, e31, e40, e41, e42, -, -, -⟩ := pt t
  funext y
  obtain ⟨u, r, q, rfl⟩ : ∃ (u : Fin 1) (r : Fin 513) (q : Fin 1024), y = ix3 u r q := ⟨y 0, y 1, y 2, eq_ix3 y⟩
  show k0_pay2 (F := Ideal) (seg0 m c t) (iblk m c 1 t) (iblk m c 2 t) (iblk m c 3 t) (ix3 u r q)
    = GRe (V m c main_v2) (V m c main_v3) (V m c main_v5) (V m c main_v7) (((cfg0.win 4).blk t).view.emb (ix3 u r q))
  refine (Pay.re_at (seg0 m c t) (iblk m c 1 t) (iblk m c 2 t) (iblk m c 3 t) u r q).trans ?_
  refine (core m c t b j e00 e01 e02 e10 e11 e12 e20 e21 e30 e31 ⟨r.val, by omega⟩ q).trans ?_
  unfold GRe
  have hu : u.val = 0 := by omega
  have h0 : ((((cfg0.win 4).blk t).view.emb (ix3 u r q)) 0).val = b.val := by
    show win0_4.index t (0 : Fin 3) * 1 + 1 * u.val = b.val; omega
  have h1 : ((((cfg0.win 4).blk t).view.emb (ix3 u r q)) 1).val = r.val := by
    show win0_4.index t (1 : Fin 3) * 513 + 1 * r.val = r.val; omega
  have h2 : ((((cfg0.win 4).blk t).view.emb (ix3 u r q)) 2).val = 1024 * j.val + q.val := by
    show win0_4.index t (2 : Fin 3) * 1024 + 1 * q.val = 1024 * j.val + q.val; omega
  exact congr (congr (congrArg _ (Fin.ext h0.symm)) (Fin.ext h1.symm)) (Fin.ext h2.symm)

/-- What point `t` writes back to the second result array is block `t` of `GIm` of the operand arrays. -/
theorem flushedIm (c : Dev nD) (t : Fin cfg0.N) :
    (dats m 0 c).flushed 5 t
      = ((cfg0.win 5).blk t).view.read (Elt Ideal) (GIm (V m c main_v2) (V m c main_v3) (V m c main_v5) (V m c main_v7)) := by
  show (cfg0.win 5).cut (grid0.coords t) ((dats m 0 c).after 5 t) = _
  rw [after5, outIm_eq]
  obtain ⟨b, j, e00, e01, e02, e10, e11, e12, e20, e21, e30, e31, -, -, -, e50, e51, e52⟩ := pt t
  funext y
  obtain ⟨u, r, q, rfl⟩ : ∃ (u : Fin 1) (r : Fin 513) (q : Fin 1024), y = ix3 u r q := ⟨y 0, y 1, y 2, eq_ix3 y⟩
  show k0_pay3 (F := Ideal) (seg0 m c t) (iblk m c 1 t) (iblk m c 2 t) (iblk m c 3 t) (ix3 u r q)
    = GIm (V m c main_v2) (V m c main_v3) (V m c main_v5) (V m c main_v7) (((cfg0.win 5).blk t).view.emb (ix3 u r q))
  refine (Pay.im_at (seg0 m c t) (iblk m c 1 t) (iblk m c 2 t) (iblk m c 3 t) u r q).trans ?_
  refine (core m c t b j e00 e01 e02 e10 e11 e12 e20 e21 e30 e31 ⟨r.val + 513, by omega⟩ q).trans ?_
  unfold GIm
  have hu : u.val = 0 := by omega
  have h0 : ((((cfg0.win 5).blk t).view.emb (ix3 u r q)) 0).val = b.val := by
    show win0_5.index t (0 : Fin 3) * 1 + 1 * u.val = b.val; omega
  have h1 : ((((cfg0.win 5).blk t).view.emb (ix3 u r q)) 1).val = r.val := by
    show win0_5.index t (1 : Fin 3) * 513 + 1 * r.val = r.val; omega
  have h2 : ((((cfg0.win 5).blk t).view.emb (ix3 u r q)) 2).val = 1024 * j.val + q.val := by
    show win0_5.index t (2 : Fin 3) * 1024 + 1 * q.val = 1024 * j.val + q.val; omega
  exact congr (congr (congrArg _ (Fin.ext h0.symm)) (Fin.ext (congrArg (· + 513) h1.symm))) (Fin.ext h2.symm)

/-! ## The blocks tile the result arrays -/

theorem mem_blkRe (t : Fin cfg0.N) (i : S16x513x3072.Idx) :
    i ∈ ((cfg0.win 4).blk t).view.set ↔ ∀ a : Fin 3, win0_4.index t a * S1x513x1024.size a ≤ (i a).val ∧ (i a).val < win0_4.index t a * S1x513x1024.size a + S1x513x1024.size a := by
  show i ∈ ((View.whole main_v8_0).slice (win0_4.rect t)).set ↔ _
  rw [View.set_slice_whole, Rect.mem_set_unit]
  exact Iff.rfl

theorem mem_blkIm (t : Fin cfg0.N) (i : S16x513x3072.Idx) :
    i ∈ ((cfg0.win 5).blk t).view.set ↔ ∀ a : Fin 3, win0_5.index t a * S1x513x1024.size a ≤ (i a).val ∧ (i a).val < win0_5.index t a * S1x513x1024.size a + S1x513x1024.size a := by
  show i ∈ ((View.whole main_v8_1).slice (win0_5.rect t)).set ↔ _
  rw [View.set_slice_whole, Rect.mem_set_unit]
  exact Iff.rfl

/-- Index (b, r, s) of a result array lies in the block of the point (b, s / 1024). -/
theorem coverRe (i : S16x513x3072.Idx) : ∃ t : Fin cfg0.N, (cfg0.win 4).flush t = true ∧ i ∈ ((cfg0.win 4).blk t).view.set := by
  have hi0 : (i 0).val < 16 := (i 0).isLt
  have hi1 : (i 1).val < 513 := (i 1).isLt
  have hi2 : (i 2).val < 3072 := (i 2).isLt
  obtain ⟨t, q0, q1, q2, -, -, -⟩ := onto ⟨(i 0).val, hi0⟩ ⟨(i 2).val / 1024, by omega⟩
  refine ⟨t, flush0_4 t, ?_⟩
  rw [mem_blkRe]
  intro a
  match a with
  | ⟨0, _⟩ => show win0_4.index t (0 : Fin 3) * 1 ≤ (i 0).val ∧ (i 0).val < win0_4.index t (0 : Fin 3) * 1 + 1; simp only [] at q0; omega
  | ⟨1, _⟩ => show win0_4.index t (1 : Fin 3) * 513 ≤ (i 1).val ∧ (i 1).val < win0_4.index t (1 : Fin 3) * 513 + 513; omega
  | ⟨2, _⟩ => show win0_4.index t (2 : Fin 3) * 1024 ≤ (i 2).val ∧ (i 2).val < win0_4.index t (2 : Fin 3) * 1024 + 1024; simp only [] at q2; omega

theorem coverIm (i : S16x513x3072.Idx) : ∃ t : Fin cfg0.N, (cfg0.win 5).flush t = true ∧ i ∈ ((cfg0.win 5).blk t).view.set := by
  have hi0 : (i 0).val < 16 := (i 0).isLt
  have hi1 : (i 1).val < 513 := (i 1).isLt
  have hi2 : (i 2).val < 3072 := (i 2).isLt
  obtain ⟨t, -, -, -, q0, q1, q2⟩ := onto ⟨(i 0).val, hi0⟩ ⟨(i 2).val / 1024, by omega⟩
  refine ⟨t, flush0_5 t, ?_⟩
  rw [mem_blkIm]
  intro a
  match a with
  | ⟨0, _⟩ => show win0_5.index t (0 : Fin 3) * 1 ≤ (i 0).val ∧ (i 0).val < win0_5.index t (0 : Fin 3) * 1 + 1; simp only [] at q0; omega
  | ⟨1, _⟩ => show win0_5.index t (1 : Fin 3) * 513 ≤ (i 1).val ∧ (i 1).val < win0_5.index t (1 : Fin 3) * 513 + 513; omega
  | ⟨2, _⟩ => show win0_5.index t (2 : Fin 3) * 1024 ≤ (i 2).val ∧ (i 2).val < win0_5.index t (2 : Fin 3) * 1024 + 1024; simp only [] at q2; omega

/-! ## The result arrays after the region -/

theorem finalRe (c : Dev nD) :
    (dats m 0 c).arrAt 4 cfg0.N = GRe (V m c main_v2) (V m c main_v3) (V m c main_v5) (V m c main_v7) :=
  (dats m 0 c).arrAt_eq_of_cover 4 _ (fun t _ => flushedRe m c t) coverRe

theorem finalIm (c : Dev nD) :
    (dats m 0 c).arrAt 5 cfg0.N = GIm (V m c main_v2) (V m c main_v3) (V m c main_v5) (V m c main_v7) :=
  (dats m 0 c).arrAt_eq_of_cover 5 _ (fun t _ => flushedIm m c t) coverIm

end Cert.KernelIdeal.Blocks

end
-- ==== Proof.KHostT.lean ====
/-
  What the region finds in its four operand arrays, as functions of the program's two arguments, and those functions
  read at an index.

  Before the region the program reflect-pads the signal `x` (`xp`: 16 rows of 1 281 024 samples), extends every row
  with zeros to 1 573 376 = 3073 · 512 samples and cuts it into 3073 half-frames of 512 samples (`halves`); the second
  operand is the same array without its first half-frame (`halves1`: half-frame s of it is half-frame s + 1).  The
  matrix operands are the left and right halves of the windowed DFT matrix (`matLo`, `matHi`), rounded to a narrower
  float format — over the extended reals the identity.

  Read at an index: sample n of half-frame s is sample 512·s + n of the padded row whenever that is below 1 281 024
  (the zeros start there: `halves_at`); column n of `matLo` is column n of the matrix and column n of `matHi` is
  column 512 + n.
-/
import proofs.«113678_j12584254177799_2_alg».proof.Proof.Gen.KernelIdeal
import Idealize.ShloMosaic.Lib.KernelVsHost
import Idealize.ShloMosaic.Lib.ValueIdx
import Idealize.ShloMosaic.Lib.ValueLayout
import Idealize.ShloMosaic.Lib.Pipeline.Value

set_option maxRecDepth 16384

noncomputable section

namespace Cert.KernelIdeal.Host

open Cert.KernelIdeal Cert.KernelIdeal.Gen
open Idealize.ShloMosaic
open Idealize.ShloMosaic.ValueIdx

section Terms
variable {F : FTy → Type} [FloatOps F]

/-- The signal with samples 1‥512 mirrored in front of it. -/
def padL (x : Vec F S16x1280000 .f32) : Vec F S16x1280512 .f32 :=
  concatenate S16x1280512 1 [⟨S16x512, Host.reverse [1] (extractStridedSlice S16x512 ![0, 1] x slices_S16x1280000_S16x512_0_1)⟩, ⟨S16x1280000, x⟩] concatenates_S16x512_S16x1280000_S16x1280512_d1

/-- The reflect-padded signal: also the 512 samples before the last mirrored behind it. -/
def xp (x : Vec F S16x1280000 .f32) : Vec F S16x1281024 .f32 :=
  concatenate S16x1281024 1 [⟨S16x1280512, padL x⟩, ⟨S16x512, Host.reverse [1] (extractStridedSlice S16x512 ![0, 1279999] (padL x) slices_S16x1280512_S16x512_0_1279999)⟩] concatenates_S16x1280512_S16x512_S16x1281024_d1

/-- The padded signal, zero-extended and cut into 3073 half-frames of 512 samples. -/
def halves (x : Vec F S16x1280000 .f32) : Vec F S16x3073x512 .f32 :=
  shapeCast S16x3073x512 (pad S16x1573376 ![0, 0] ![0, 292352] ![0, 0] (xp x) (sitofp (F := F) .f32 (constantI S_ 32 0#32)) pads_S16x1281024_S16x1573376_000_02923520 h_S_) shapeCasts_S16x1573376_S16x3073x512

/-- The same without its first half-frame. -/
def halves1 (x : Vec F S16x1280000 .f32) : Vec F S16x3072x512 .f32 :=
  extractStridedSlice S16x3072x512 ![0, 1, 0] (halves x) slices_S16x3073x512_S16x3072x512_0_1_0

/-- The left half of the windowed DFT matrix (columns 0‥511), in the narrower format. -/
def matLo (fk : Vec F S1026x1024 .f32) : Vec F S1026x512 .bf16 :=
  truncf .bf16 (extractStridedSlice S1026x512 ![0, 0] fk slices_S1026x1024_S1026x512_0_0) bitsLt_bf16_f32

/-- The right half (columns 512‥1023). -/
def matHi (fk : Vec F S1026x1024 .f32) : Vec F S1026x512 .bf16 :=
  truncf .bf16 (extractStridedSlice S1026x512 ![0, 512] fk slices_S1026x1024_S1026x512_0_512) bitsLt_bf16_f32

end Terms

/-! ## Read at an index -/

/-- Sample n of half-frame s is sample 512·s + n of the padded row, below the first zero. -/
theorem halves_at {F : FTy → Type} [FloatOps F] (x : Vec F S16x1280000 .f32) (b : Fin 16) (s : Fin 3073) (n : Fin 512) (h : 512 * s.val + n.val < 1281024) :
    halves x (ix3 b s n) = xp x (ix2 b ⟨512 * s.val + n.val, h⟩) := by
  unfold halves
  refine (shapeCast_apply _ _ (ix3 b s n) (ix2 b (⟨512 * s.val + n.val, by omega⟩ : Fin 1573376)) ?_).trans ?_
  · rw [Shape.rowMajor_val_two, Shape.rowMajor_val_three]
    show b.val * 1573376 + (512 * s.val + n.val) = (b.val * 3073 + s.val) * 512 + n.val
    omega
  · refine pad_apply_of_inside _ _ _ _ _ _ _ _ (ix2 b ⟨512 * s.val + n.val, h⟩) fun a => ?_
    match a with
    | ⟨0, _⟩ => show b.val = 0 + b.val * (0 + 1); omega
    | ⟨1, _⟩ => show 512 * s.val + n.val = 0 + (512 * s.val + n.val) * (0 + 1); omega

/-- Half-frame s of the shifted array is half-frame s + 1. -/
theorem halves1_at {F : FTy → Type} [FloatOps F] (x : Vec F S16x1280000 .f32) (b : Fin 16) (s : Fin 3072) (n : Fin 512) :
    halves1 x (ix3 b s n) = halves x (ix3 b ⟨s.val + 1, by omega⟩ n) := by
  unfold halves1
  refine extractStridedSlice_apply _ _ _ (ix3 b s n) (ix3 b ⟨s.val + 1, by omega⟩ n) fun a => ?_
  match a with
  | ⟨0, _⟩ => show b.val = 0 + b.val; omega
  | ⟨1, _⟩ => show s.val + 1 = 1 + s.val; omega
  | ⟨2, _⟩ => show n.val = 0 + n.val; omega

/-- Column n of the left half is column n of the matrix, -/
theorem matLo_at (fk : Vec Ideal S1026x1024 .f32) (r : Fin 1026) (n : Fin 512) :
    matLo fk (ix2 r n) = fk (ix2 r ⟨n.val, by omega⟩) := by
  unfold matLo
  show extractStridedSlice S1026x512 ![0, 0] fk slices_S1026x1024_S1026x512_0_0 (ix2 r n) = _
  refine extractStridedSlice_apply _ _ _ (ix2 r n) (ix2 r ⟨n.val, by omega⟩) fun a => ?_
  match a with
  | ⟨0, _⟩ => show r.val = 0 + r.val; omega
  | ⟨1, _⟩ => show n.val = 0 + n.val; omega

/-- and column n of the right half is column 512 + n. -/
theorem matHi_at (fk : Vec Ideal S1026x1024 .f32) (r : Fin 1026) (n : Fin 512) :
    matHi fk (ix2 r n) = fk (ix2 r ⟨512 + n.val, by omega⟩) := by
  unfold matHi
  show extractStridedSlice S1026x512 ![0, 512] fk slices_S1026x1024_S1026x512_0_512 (ix2 r n) = _
  refine extractStridedSlice_apply _ _ _ (ix2 r n) (ix2 r ⟨512 + n.val, by omega⟩) fun a => ?_
  match a with
  | ⟨0, _⟩ => show r.val = 0 + r.val; omega
  | ⟨1, _⟩ => show 512 + n.val = 512 + n.val; omega

end Cert.KernelIdeal.Host

end
-- ==== Proof.KHostV.lean ====
/-
  The four operand arrays as the region finds them are the named functions of the program's arguments: each is the fold
  of the host operations before the region over the launch memory, read at the operand's buffer — the reflect padding,
  the zero extension, the cut into half-frames and the drop of the first one for the two half-frame arrays; the column
  slice and the change of float format for the two matrix halves.
-/
import proofs.«113678_j12584254177799_2_alg».proof.Proof.KHostT
import proofs.«113678_j12584254177799_2_alg».proof.Proof.Gen.KernelIdeal.Frame
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The first operand array: the padded signal, zero-extended and cut into half-frames. -/
theorem V_v2 (c : Dev nD) : (V m c main_v2 : S16x3073x512.Idx → Elt F .f32) = halves (m ((c : Thread nD τ).loc main_arg0)) := by
  dsimp only [V, V0]
  simp only [hostOps0, hostOps0_1, hostOps0_2, hostOps0_3, hostOps0_4, List.flatten_cons, List.flatten_nil, List.append_nil, List.cons_append, List.nil_append]
  after_results
  simp only [TRef.toBuf, TRef.ofBuf, cast_eq]
  unfold halves xp padL
  rfl

/-- The second: the same without its first half-frame. -/
theorem V_v3 (c : Dev nD) : (V m c main_v3 : S16x3072x512.Idx → Elt F .f32) = halves1 (m ((c : Thread nD τ).loc main_arg0)) := by
  dsimp only [V, V0]
  simp only [hostOps0, hostOps0_1, hostOps0_2, hostOps0_3, hostOps0_4, List.flatten_cons, List.flatten_nil, List.append_nil, List.cons_append, List.nil_append]
  after_results
  simp only [TRef.toBuf, TRef.ofBuf, cast_eq]
  unfold halves1 halves xp padL
  rfl

/-- The third: the left half of the matrix. -/
theorem V_v5 (c : Dev nD) : (V m c main_v5 : S1026x512.Idx → Elt F .bf16) = matLo (m ((c : Thread nD τ).loc main_arg1)) := by
  dsimp only [V, V0]
  simp only [hostOps0, hostOps0_1, hostOps0_2, hostOps0_3, hostOps0_4, List.flatten_cons, List.flatten_nil, List.append_nil, List.cons_append, List.nil_append]
  after_results
  unfold matLo
  rfl

/-- The fourth: the right half. -/
theorem V_v7 (c : Dev nD) : (V m c main_v7 : S1026x512.Idx → Elt F .bf16) = matHi (m ((c : Thread nD τ).loc main_arg1)) := by
  dsimp only [V, V0]
  simp only [hostOps0, hostOps0_1, hostOps0_2, hostOps0_3, hostOps0_4, List.flatten_cons, List.flatten_nil, List.append_nil, List.cons_append, List.nil_append]
  after_results
  unfold matHi
  rfl

end Cert.KernelIdeal.Host

end
-- ==== Proof.KRun.lean ====
/-
  The kernel program's run over the extended reals, with its results named.

  After the region the first result array holds `GRe` and the second `GIm` of the four operand arrays (the blocks
  written back tile them), and the operand arrays are the named functions of the two arguments.  The two host
  operations after the region keep frames 0‥2500 of each result array (positions 2501‥3071 were computed from the zero
  extension and are dropped).  So every weakly fair execution of @main terminates with the two results at those slices
  and the two arguments as launched.
-/
import proofs.«113678_j12584254177799_2_alg».proof.Proof.BodyI
import proofs.«113678_j12584254177799_2_alg».proof.Proof.KBlocks
import proofs.«113678_j12584254177799_2_alg».proof.Proof.KHostV
import Idealize.ShloMosaic.Lib.StableHlo.Run

set_option maxRecDepth 16384

noncomputable section

namespace Cert.KernelIdeal.Run

open Cert.KernelIdeal Cert.KernelIdeal.Gen Cert.KernelIdeal.Body Cert.KernelIdeal.Blocks Cert.KernelIdeal.Host
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-- The first result buffer after the lines that follow the region: the first result array cut to 2501 frames. -/
theorem tail9 (c : Dev nD) : Pipeline.afterTail₀ cfgs (dats m) 0 (V0 m) [hostOps1] c main_v9
    = extractStridedSlice S16x513x2501 ![0, 0, 0] ((dats m 0 c).arrAt 4 cfg0.N) slices_S16x513x3072_S16x513x2501_0_0_0 := by
  unfold Pipeline.afterTail₀
  show StableHlo.after hostOps1 _ (Proc.devRef .tc main_v9) = _
  after_results
  exact congrArg (fun z => extractStridedSlice S16x513x2501 ![0, 0, 0] z slices_S16x513x3072_S16x513x2501_0_0_0)
    (Pipeline.withArrays_arr spec0 launch0.win.arr_inj c _ _ 4)

/-- The second likewise. -/
theorem tail10 (c : Dev nD) : Pipeline.afterTail₀ cfgs (dats m) 0 (V0 m) [hostOps1] c main_v10
    = extractStridedSlice S16x513x2501 ![0, 0, 0] ((dats m 0 c).arrAt 5 cfg0.N) slices_S16x513x3072_S16x513x2501_0_0_0 := by
  unfold Pipeline.afterTail₀
  show StableHlo.after hostOps1 _ (Proc.devRef .tc main_v10) = _
  after_results
  exact congrArg (fun z => extractStridedSlice S16x513x2501 ![0, 0, 0] z slices_S16x513x3072_S16x513x2501_0_0_0)
    (Pipeline.withArrays_arr spec0 launch0.win.arr_inj c _ _ 5)

/-- The first result as a function of the two arguments. -/
theorem res9 (c : Dev nD) : Pipeline.afterTail₀ cfgs (dats m) 0 (V0 m) [hostOps1] c main_v9
    = extractStridedSlice S16x513x2501 ![0, 0, 0]
        (GRe (halves (m ((c : Thread nD τ).loc main_arg0))) (halves1 (m ((c : Thread nD τ).loc main_arg0)))
          (matLo (m ((c : Thread nD τ).loc main_arg1))) (matHi (m ((c : Thread nD τ).loc main_arg1))))
        slices_S16x513x3072_S16x513x2501_0_0_0 := by
  rw [tail9, finalRe, V_v2, V_v3, V_v5, V_v7]

/-- The second. -/
theorem res10 (c : Dev nD) : Pipeline.afterTail₀ cfgs (dats m) 0 (V0 m) [hostOps1] c main_v10
    = extractStridedSlice S16x513x2501 ![0, 0, 0]
        (GIm (halves (m ((c : Thread nD τ).loc main_arg0))) (halves1 (m ((c : Thread nD τ).loc main_arg0)))
          (matLo (m ((c : Thread nD τ).loc main_arg1))) (matHi (m ((c : Thread nD τ).loc main_arg1))))
        slices_S16x513x3072_S16x513x2501_0_0_0 := by
  rw [tail10, finalIm, V_v2, V_v3, V_v5, V_v7]

/-- The run: both results at their functions of the arguments, the arguments unchanged. -/
theorem run : θ_run (defs (F := Ideal)) (onTc (τ := τ) (main (F := Ideal))) ⟨m, fun _ => 0, ρ⟩ fun r => ∀ c : Dev nD,
      r.2.mem ((c : Thread nD τ).loc main_v9) = extractStridedSlice S16x513x2501 ![0, 0, 0]
          (GRe (halves (m ((c : Thread nD τ).loc main_arg0))) (halves1 (m ((c : Thread nD τ).loc main_arg0)))
            (matLo (m ((c : Thread nD τ).loc main_arg1))) (matHi (m ((c : Thread nD τ).loc main_arg1))))
          slices_S16x513x3072_S16x513x2501_0_0_0
      ∧ r.2.mem ((c : Thread nD τ).loc main_v10) = extractStridedSlice S16x513x2501 ![0, 0, 0]
          (GIm (halves (m ((c : Thread nD τ).loc main_arg0))) (halves1 (m ((c : Thread nD τ).loc main_arg0)))
            (matLo (m ((c : Thread nD τ).loc main_arg1))) (matHi (m ((c : Thread nD τ).loc main_arg1))))
          slices_S16x513x3072_S16x513x2501_0_0_0
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v9 (Pipeline.mem_restRefs_of main_v9 (by decide) (by decide))).trans (res9 m c),
     ((h c).2 main_v10 (Pipeline.mem_restRefs_of main_v10 (by decide) (by decide))).trans (res10 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Run

end
-- ==== Proof.Spec.lean ====
/-
  The short-time Fourier transform both programs compute, stated once over literal shapes.

  The signal `x` (16 rows of 1 280 000 samples) is reflect-padded by 512 samples on each side to `xp`
  (16 rows of 1 281 024).  Frame `t` (of 2501) of row `b` is the 1024 consecutive samples of `xp` starting
  at `512 · t`; bin `k` (of 1026: 513 real parts, then 513 imaginary parts) of that frame is its inner product
  with row `k` of the windowed DFT matrix `fk`:

      bin fk xp b k t = Σ_{n < 1024} fk[k, n] · xp[b, 512·t + n].

  The first result holds bins 0‥512, the second bins 513‥1025.  Because the hop is half the frame, the frame is
  the concatenation of two half-frames of 512 samples, and the inner product is the sum of the two half inner
  products (`bin_halves`): a regrouping of a finite sum, valid for every extended real — no finiteness is used.
-/
import Idealize.ShloMosaic.PureOps.Ideal
import Idealize.ShloMosaic.Lib.ValueIdx

noncomputable section

open scoped BigOperators

namespace Cert.Stft

open Idealize.ShloMosaic Idealize.ShloMosaic.ValueIdx

/-- Sample `512·t + n` of a padded row, for a frame `t < 2501` and an offset `n < 1024`: below 1 281 024. -/
abbrev smp (t : Fin 2501) (n : Fin 1024) : Fin 1281024 := ⟨512 * t.val + n.val, by omega⟩

/-- Bin `k` of frame `t` of row `b`: the inner product of row `k` of the windowed DFT matrix with the frame. -/
def bin (fk : FVec Ideal ⟨2, ![1026, 1024]⟩ .f32) (xp : FVec Ideal ⟨2, ![16, 1281024]⟩ .f32)
    (b : Fin 16) (k : Fin 1026) (t : Fin 2501) : EReal :=
  ∑ n : Fin 1024, fk (ix2 k n) * xp (ix2 b (smp t n))

/-- The real parts: bins 0‥512. -/
def re (fk : FVec Ideal ⟨2, ![1026, 1024]⟩ .f32) (xp : FVec Ideal ⟨2, ![16, 1281024]⟩ .f32) :
    FVec Ideal ⟨3, ![16, 513, 2501]⟩ .f32 := fun i =>
  bin fk xp ⟨(i 0).val, (i 0).isLt⟩ ⟨(i 1).val, Nat.lt_of_lt_of_le (i 1).isLt (by decide)⟩ ⟨(i 2).val, (i 2).isLt⟩

/-- The imaginary parts: bins 513‥1025. -/
def im (fk : FVec Ideal ⟨2, ![1026, 1024]⟩ .f32) (xp : FVec Ideal ⟨2, ![16, 1281024]⟩ .f32) :
    FVec Ideal ⟨3, ![16, 513, 2501]⟩ .f32 := fun i =>
  bin fk xp ⟨(i 0).val, (i 0).isLt⟩ ⟨(i 1).val + 513, Nat.add_lt_of_lt_sub (i 1).isLt⟩ ⟨(i 2).val, (i 2).isLt⟩

/-- A sum over 1024 terms is the sum over the first 512 plus the sum over the last 512. -/
theorem sum_halves {M : Type*} [AddCommMonoid M] (f : Fin 1024 → M) :
    ∑ n : Fin 1024, f n
      = ∑ n : Fin 512, f ⟨n.val, by omega⟩ + ∑ n : Fin 512, f ⟨512 + n.val, by omega⟩ := by
  exact Fin.sum_univ_add (a := 512) (b := 512) (fun i : Fin (512 + 512) => f ⟨i.val, by omega⟩)

/-- A bin is the sum of the inner products over the frame's two half-frames. -/
theorem bin_halves (fk : FVec Ideal ⟨2, ![1026, 1024]⟩ .f32) (xp : FVec Ideal ⟨2, ![16, 1281024]⟩ .f32)
    (b : Fin 16) (k : Fin 1026) (t : Fin 2501) :
    bin fk xp b k t
      = ∑ n : Fin 512, fk (ix2 k ⟨n.val, by omega⟩) * xp (ix2 b ⟨512 * t.val + n.val, by omega⟩)
        + ∑ n : Fin 512, fk (ix2 k ⟨512 + n.val, by omega⟩) * xp (ix2 b ⟨512 * (t.val + 1) + n.val, by omega⟩) := by
  unfold bin
  rw [sum_halves]
  refine congrArg₂ (· + ·) rfl (Finset.sum_congr rfl fun n _ => ?_)
  refine congrArg₂ (· * ·) rfl (congrArg xp (congrArg (ix2 b) (Fin.ext ?_)))
  show 512 * t.val + (512 + n.val) = 512 * (t.val + 1) + n.val
  omega

end Cert.Stft

end
-- ==== Proof.KBridge.lean ====
/-
  The kernel program's two result arrays, cut to the 2501 frames, are the real and imaginary parts of the transform
  of the reflect-padded signal.

  At position t < 2501 the first operand array's half-frame t holds samples 512·t ‥ 512·t + 511 of the padded row and
  the second's half-frame t — the first's half-frame t + 1 — samples 512·(t + 1) ‥ 512·(t + 1) + 511, all below
  1 281 024, where the zeros start (512·2501 + 511 = 1 281 023); the two matrix operands are columns 0‥511 and
  512‥1023 of the windowed DFT matrix.  So the sum of the two half inner products is the inner product of row r of
  the matrix with frame t: bin r of frame t.  The first result array holds bins 0‥512, the second bins 513‥1025.
-/
import proofs.«113678_j12584254177799_2_alg».proof.Proof.KFun
import proofs.«113678_j12584254177799_2_alg».proof.Proof.KHostT
import proofs.«113678_j12584254177799_2_alg».proof.Proof.Spec

noncomputable section

open scoped BigOperators

namespace Cert.KernelIdeal.Bridge

open Cert.KernelIdeal Cert.KernelIdeal.Gen Cert.KernelIdeal.Blocks Cert.KernelIdeal.Host Idealize.ShloMosaic Idealize.ShloMosaic.ValueIdx

/-- Bin r at position t < 2501 of the operand arrays is bin r of frame t of the padded signal. -/
theorem gsum_eq_bin (x : Vec Ideal S16x1280000 .f32) (fk : Vec Ideal S1026x1024 .f32)
    (b : Fin 16) (r : Fin 1026) (t : Fin 2501) :
    gsum (halves x) (halves1 x) (matLo fk) (matHi fk) b r ⟨t.val, by omega⟩ = Cert.Stft.bin fk (xp x) b r t := by
  rw [Cert.Stft.bin_halves]
  unfold gsum
  refine congrArg₂ (· + ·)
    (Finset.sum_congr rfl fun n _ => congrArg₂ (· * ·) ?_ ?_)
    (Finset.sum_congr rfl fun n _ => congrArg₂ (· * ·) ?_ ?_)
  · exact matLo_at fk r n
  · exact halves_at x b ⟨t.val, by omega⟩ n (by show 512 * t.val + n.val < 1281024; omega)
  · exact matHi_at fk r n
  · refine (halves1_at x b ⟨t.val, by omega⟩ n).trans ?_
    exact halves_at x b ⟨t.val + 1, by omega⟩ n (by show 512 * (t.val + 1) + n.val < 1281024; omega)

/-- The first result array, cut to the 2501 frames, holds the real parts. -/
theorem re_bridge (x : Vec Ideal S16x1280000 .f32) (fk : Vec Ideal S1026x1024 .f32) :
    extractStridedSlice S16x513x2501 ![0, 0, 0] (GRe (halves x) (halves1 x) (matLo fk) (matHi fk)) slices_S16x513x3072_S16x513x2501_0_0_0
      = Cert.Stft.re fk (xp x) := by
  funext i
  obtain ⟨b, r, t, rfl⟩ : ∃ (b : Fin 16) (r : Fin 513) (t : Fin 2501), i = ix3 b r t := ⟨i 0, i 1, i 2, eq_ix3 i⟩
  refine (extractStridedSlice_apply _ _ _ (ix3 b r t) (ix3 b r (⟨t.val, by omega⟩ : Fin 3072)) fun a => ?_).trans ?_
  · match a with
    | ⟨0, _⟩ => show b.val = 0 + b.val; omega
    | ⟨1, _⟩ => show r.val = 0 + r.val; omega
    | ⟨2, _⟩ => show t.val = 0 + t.val; omega
  · exact gsum_eq_bin x fk b ⟨r.val, by omega⟩ t

/-- The second result array, cut to the 2501 frames, holds the imaginary parts. -/
theorem im_bridge (x : Vec Ideal S16x1280000 .f32) (fk : Vec Ideal S1026x1024 .f32) :
    extractStridedSlice S16x513x2501 ![0, 0, 0] (GIm (halves x) (halves1 x) (matLo fk) (matHi fk)) slices_S16x513x3072_S16x513x2501_0_0_0
      = Cert.Stft.im fk (xp x) := by
  funext i
  obtain ⟨b, r, t, rfl⟩ : ∃ (b : Fin 16) (r : Fin 513) (t : Fin 2501), i = ix3 b r t := ⟨i 0, i 1, i 2, eq_ix3 i⟩
  refine (extractStridedSlice_apply _ _ _ (ix3 b r t) (ix3 b r (⟨t.val, by omega⟩ : Fin 3072)) fun a => ?_).trans ?_
  · match a with
    | ⟨0, _⟩ => show b.val = 0 + b.val; omega
    | ⟨1, _⟩ => show r.val = 0 + r.val; omega
    | ⟨2, _⟩ => show t.val = 0 + t.val; omega
  · exact gsum_eq_bin x fk b ⟨r.val + 513, by omega⟩ t

end Cert.KernelIdeal.Bridge

end
-- ==== Proof.RefRun.lean ====
/-
  The reference program's @main as the list of its host operations, the two outlined functions (the reflect padding
  and the reversal it calls twice) written out at their call sites over the call's own buffers, and its run read
  back: every weakly fair execution terminates with each buffer at the fold of the operations over the launch
  contents.
-/
import proofs.«113678_j12584254177799_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F] [Facts]

/-- @main's operations in order: the scalar zero the padding function takes and ignores; the padding function's
    eight (two slices of the signal, the reversal of the second, the concatenation in front of the signal, two
    slices of that, the reversal of the second, the concatenation behind it); the integer table of sample
    positions (two iotas, their broadcasts, a product and a sum), the wrap of negative positions (a comparison
    with zero, the sum with the padded length, a select), its broadcast to an index vector; the gather of the
    frames; the contraction with the transform's matrix; the transposition; the two slices. -/
abbrev ops : List (HloOp τ sig (Elt F)) :=
  [ nullary main_c (constantI S_ 32 0#32),
    TRef.unary (.of main_arg0 : TRef sig ⟨S16x1280000, .f32⟩) main_call0.v0 (extractStridedSlice S16x1 ![0, 0] · slices_S16x1280000_S16x1_0_0),
    TRef.unary (.of main_arg0 : TRef sig ⟨S16x1280000, .f32⟩) main_call0.v1 (extractStridedSlice S16x512 ![0, 1] · slices_S16x1280000_S16x512_0_1),
    TRef.unary main_call0.v1 main_call0.call0.v0 (Host.reverse [1]),
    TRef.binary main_call0.call0.v0 (.of main_arg0 : TRef sig ⟨S16x1280000, .f32⟩) main_call0.v3 (fun a b => concatenate S16x1280512 1 [⟨S16x512, a⟩, ⟨S16x1280000, b⟩] concatenates_S16x512_S16x1280000_S16x1280512_d1),
    TRef.unary main_call0.v3 main_call0.v4 (extractStridedSlice S16x1 ![0, 1280511] · slices_S16x1280512_S16x1_0_1280511),
    TRef.unary main_call0.v3 main_call0.v5 (extractStridedSlice S16x512 ![0, 1279999] · slices_S16x1280512_S16x512_0_1279999),
    TRef.unary main_call0.v5 main_call0.call1.v0 (Host.reverse [1]),
    TRef.binary main_call0.v3 main_call0.call1.v0 main_call0.v7 (fun a b => concatenate S16x1281024 1 [⟨S16x1280512, a⟩, ⟨S16x512, b⟩] concatenates_S16x1280512_S16x512_S16x1281024_d1),
    nullary main_v1 (iotaInDim S2501 32 0),
    unary main_v1 main_v2 (broadcastInDim S2501x1 ![0] bcast_S2501_S2501x1_0 : (⟨S2501, .i32⟩ : BufTy).Contents (Elt F) → (⟨S2501x1, .i32⟩ : BufTy).Contents (Elt F)),
    nullary main_c_0 (constantI S_ 32 512#32),
    unary main_c_0 main_v3 (broadcastInDim S2501x1 ![] bcast_S_S2501x1 : (⟨S_, .i32⟩ : BufTy).Contents (Elt F) → (⟨S2501x1, .i32⟩ : BufTy).Contents (Elt F)),
    binary main_v2 main_v3 main_v4 (muli : (⟨S2501x1, .i32⟩ : BufTy).Contents (Elt F) → (⟨S2501x1, .i32⟩ : BufTy).Contents (Elt F) → (⟨S2501x1, .i32⟩ : BufTy).Contents (Elt F)),
    nullary main_v5 (iotaInDim S1024 32 0),
    unary main_v5 main_v6 (broadcastInDim S1x1024 ![1] bcast_S1024_S1x1024_1 : (⟨S1024, .i32⟩ : BufTy).Contents (Elt F) → (⟨S1x1024, .i32⟩ : BufTy).Contents (Elt F)),
    unary main_v4 main_v7 (broadcastInDim S2501x1024 ![0, 1] bcast_S2501x1_S2501x1024_0_1 : (⟨S2501x1, .i32⟩ : BufTy).Contents (Elt F) → (⟨S2501x1024, .i32⟩ : BufTy).Contents (Elt F)),
    unary main_v6 main_v8 (broadcastInDim S2501x1024 ![0, 1] bcast_S1x1024_S2501x1024_0_1 : (⟨S1x1024, .i32⟩ : BufTy).Contents (Elt F) → (⟨S2501x1024, .i32⟩ : BufTy).Contents (Elt F)),
    binary main_v7 main_v8 main_v9 (addi : (⟨S2501x1024, .i32⟩ : BufTy).Contents (Elt F) → (⟨S2501x1024, .i32⟩ : BufTy).Contents (Elt F) → (⟨S2501x1024, .i32⟩ : BufTy).Contents (Elt F)),
    nullary main_c_1 (constantI S_ 32 0#32),
    unary main_c_1 main_v10 (broadcastInDim S2501x1024 ![] bcast_S_S2501x1024 : (⟨S_, .i32⟩ : BufTy).Contents (Elt F) → (⟨S2501x1024, .i32⟩ : BufTy).Contents (Elt F)),
    binary main_v9 main_v10 main_v11 (cmpi .slt : (⟨S2501x1024, .i32⟩ : BufTy).Contents (Elt F) → (⟨S2501x1024, .i32⟩ : BufTy).Contents (Elt F) → (⟨S2501x1024, .i1⟩ : BufTy).Contents (Elt F)),
    nullary main_c_2 (constantI S_ 32 1281024#32),
    unary main_c_2 main_v12 (broadcastInDim S2501x1024 ![] bcast_S_S2501x1024 : (⟨S_, .i32⟩ : BufTy).Contents (Elt F) → (⟨S2501x1024, .i32⟩ : BufTy).Contents (Elt F)),
    binary main_v9 main_v12 main_v13 (addi : (⟨S2501x1024, .i32⟩ : BufTy).Contents (Elt F) → (⟨S2501x1024, .i32⟩ : BufTy).Contents (Elt F) → (⟨S2501x1024, .i32⟩ : BufTy).Contents (Elt F)),
    ternary main_v11 main_v13 main_v9 main_v14 (select : (⟨S2501x1024, .i1⟩ : BufTy).Contents (Elt F) → (⟨S2501x1024, .i32⟩ : BufTy).Contents (Elt F) → (⟨S2501x1024, .i32⟩ : BufTy).Contents (Elt F) → (⟨S2501x1024, .i32⟩ : BufTy).Contents (Elt F)),
    unary main_v14 main_v15 (broadcastInDim S2501x1024x1 ![0, 1] bcast_S2501x1024_S2501x1024x1_0_1 : (⟨S2501x1024, .i32⟩ : BufTy).Contents (Elt F) → (⟨S2501x1024x1, .i32⟩ : BufTy).Contents (Elt F)),
    binary main_v0 main_v15 main_v16 ((fun x i => Host.gather gather_S16x1281024_S2501x1024x1_S16x2501x1024_0_1_n_n_1_2_161 x i) : (⟨S16x1281024, .f32⟩ : BufTy).Contents (Elt F) → (⟨S2501x1024x1, .i32⟩ : BufTy).Contents (Elt F) → (⟨S16x2501x1024, .f32⟩ : BufTy).Contents (Elt F)),
    binary main_arg1 main_v16 main_v17 ((fun l r => Host.dotGeneral dot_S1026x1024_S16x2501x1024_S1026x16x2501_1_2_0_01_n_n none l r) : (⟨S1026x1024, .f32⟩ : BufTy).Contents (Elt F) → (⟨S16x2501x1024, .f32⟩ : BufTy).Contents (Elt F) → (⟨S1026x16x2501, .f32⟩ : BufTy).Contents (Elt F)),
    unary main_v17 main_v18 ((transpose S16x1026x2501 [1, 0, 2] · transposes_S1026x16x2501_S16x1026x2501_1_0_2) : (⟨S1026x16x2501, .f32⟩ : BufTy).Contents (Elt F) → (⟨S16x1026x2501, .f32⟩ : BufTy).Contents (Elt F)),
    unary main_v18 main_v19 ((extractStridedSlice S16x513x2501 ![0, 0, 0] · slices_S16x1026x2501_S16x513x2501_0_0_0) : (⟨S16x1026x2501, .f32⟩ : BufTy).Contents (Elt F) → (⟨S16x513x2501, .f32⟩ : BufTy).Contents (Elt F)),
    unary main_v18 main_v20 ((extractStridedSlice S16x513x2501 ![0, 513, 0] · slices_S16x1026x2501_S16x513x2501_0_513_0) : (⟨S16x1026x2501, .f32⟩ : BufTy).Contents (Elt F) → (⟨S16x513x2501, .f32⟩ : BufTy).Contents (Elt F)) ]

set_option maxRecDepth 1024 in
/-- @main is that straight line: the two functions' definitions unfolded at their calls, both sides are one chain
    of operation steps once sequencing is reassociated. -/
theorem main_eq (c : Dev nD) : main (F := F) c = seq ops := by
  simp only [main, fn_pad.body, fn_flip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub ..,
    nullary_bufs_sub .., unary_bufs_sub .., nullary_bufs_sub .., unary_bufs_sub .., binary_bufs_sub .., nullary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., unary_bufs_sub .., unary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference program's results, read index by index.

  The run of the straight line (RefRun) leaves each buffer at the composition of the operations' functions. Named
  here: the reflect-padded signal xp x; the integer table tbl of start indices, whose entry (t, n, 0) is the 32-bit
  word of 512 t + n (no product or sum overflows: 512 t + n ≤ 1 281 023 < 2^31, so the wrap of negative indices
  never fires and the word read signed is the number itself); the frames, frames x (b, t, n) = xp x (b, 512 t + n) (the
  gather reads row b at the start index, clamped into the row, and the index is already inside it); the products
  prod fk x (k, b, t) = Σ_n fk (k, n) · frames x (b, t, n) (the contraction over the one contracted axis, re-indexed by
  its coordinate); their transposition; and the two slices of rows 0‥512 and 513‥1025 of the bins, which are the
  real and imaginary parts of the specification.
-/
import proofs.«113678_j12584254177799_2_alg».proof.Proof.RefRun
import proofs.«113678_j12584254177799_2_alg».proof.Proof.Spec
import Idealize.ShloMosaic.Lib.ValueLayout
import Idealize.ShloMosaic.Lib.IdealHost
import Idealize.ShloMosaic.PureOps.Ideal.Laws

noncomputable section

open scoped BigOperators

namespace Cert.ReferenceIdeal.RefValue

open Cert.ReferenceIdeal Idealize.ShloMosaic Idealize.ShloMosaic.TcCoe Idealize.SL.Sem
open Idealize.ShloMosaic.StableHlo Idealize.ShloMosaic.ValueIdx

/-- The signal with its first 512 samples after the first mirrored in front of it. -/
def padL (x : FVec Ideal S16x1280000 .f32) : FVec Ideal S16x1280512 .f32 :=
  concatenate S16x1280512 1 [⟨S16x512, Host.reverse [1] (extractStridedSlice S16x512 ![0, 1] x Facts₀.slices_S16x1280000_S16x512_0_1)⟩, ⟨S16x1280000, x⟩] Facts₀.concatenates_S16x512_S16x1280000_S16x1280512_d1
/-- The reflect-padded signal: also the last 512 samples before the last mirrored behind it. -/
def xp (x : FVec Ideal S16x1280000 .f32) : FVec Ideal S16x1281024 .f32 :=
  concatenate S16x1281024 1 [⟨S16x1280512, padL x⟩, ⟨S16x512, Host.reverse [1] (extractStridedSlice S16x512 ![0, 1279999] (padL x) Facts₀.slices_S16x1280512_S16x512_0_1279999)⟩] Facts₀.concatenates_S16x1280512_S16x512_S16x1281024_d1

/-- The sample position of offset n of frame t, as the program computes it: 512 t + n in 32-bit words. -/
def pos : IVec S2501x1024 32 :=
  addi
    (broadcastInDim S2501x1024 ![0, 1] Facts₀.bcast_S2501x1_S2501x1024_0_1
      (muli (broadcastInDim S2501x1 ![0] Facts₀.bcast_S2501_S2501x1_0 (iotaInDim S2501 32 0))
        (broadcastInDim S2501x1 ![] Facts₀.bcast_S_S2501x1 (constantI S_ 32 512#32))))
    (broadcastInDim S2501x1024 ![0, 1] Facts₀.bcast_S1x1024_S2501x1024_0_1
      (broadcastInDim S1x1024 ![1] Facts₀.bcast_S1024_S1x1024_1 (iotaInDim S1024 32 0)))

/-- The table of start indices: a negative position wrapped by the padded length (none is negative), as an index vector. -/
def tbl : IVec S2501x1024x1 32 :=
  broadcastInDim S2501x1024x1 ![0, 1] Facts₀.bcast_S2501x1024_S2501x1024x1_0_1
    (select (cmpi .slt pos (broadcastInDim S2501x1024 ![] Facts₀.bcast_S_S2501x1024 (constantI S_ 32 0#32)))
      (addi pos (broadcastInDim S2501x1024 ![] Facts₀.bcast_S_S2501x1024 (constantI S_ 32 1281024#32)))
      pos)

/-- The frames: 1024 consecutive samples of the padded signal from every 512th. -/
def frames (x : FVec Ideal S16x1280000 .f32) : FVec Ideal S16x2501x1024 .f32 :=
  Host.gather gather_S16x1281024_S2501x1024x1_S16x2501x1024_0_1_n_n_1_2_161 (xp x) tbl

/-- Every row of the transform's matrix against every frame. -/
def prod (fk : FVec Ideal S1026x1024 .f32) (x : FVec Ideal S16x1280000 .f32) : FVec Ideal S1026x16x2501 .f32 :=
  Host.dotGeneral dot_S1026x1024_S16x2501x1024_S1026x16x2501_1_2_0_01_n_n none fk (frames x)

/-- The same with the signal's row first. -/
def spec (fk : FVec Ideal S1026x1024 .f32) (x : FVec Ideal S16x1280000 .f32) : FVec Ideal S16x1026x2501 .f32 :=
  transpose S16x1026x2501 [1, 0, 2] (prod fk x) Facts₀.transposes_S1026x16x2501_S16x1026x2501_1_0_2

/-! ## The integer operations at an index -/

theorem muli_apply {s : Shape} {w : Nat} (x y : IVec s w) (i : s.Idx) : muli x y i = x i * y i := rfl
theorem addi_apply {s : Shape} {w : Nat} (x y : IVec s w) (i : s.Idx) : addi x y i = x i + y i := rfl
theorem cmpi_apply {s : Shape} {w : Nat} (p : CmpIPredicate) (x y : IVec s w) (i : s.Idx) :
    cmpi p x y i = IntOp.cmpi p (x i) (y i) := rfl
theorem constantI_apply {s : Shape} {w : Nat} (b : BitVec w) (i : s.Idx) : constantI s w b i = b := rfl

/-- A number below 2^31, as a 32-bit word, is not below zero as a signed word. -/
theorem cmpi_slt_zero (v : Nat) (hv : v < 2147483648) : IntOp.cmpi .slt (BitVec.ofNat 32 v) 0#32 = 0#1 := by
  unfold IntOp.cmpi
  show BitVec.ofBool ((BitVec.ofNat 32 v).slt 0#32) = 0#1
  rw [BitVec.slt_zero_eq_msb]
  have : (BitVec.ofNat 32 v).msb = false := by
    rw [BitVec.msb_eq_decide]
    simp only [BitVec.toNat_ofNat, decide_eq_false_iff_not, Nat.not_le]
    omega
  rw [this]
  rfl

/-- A number below 2^31, as a 32-bit word read signed, is itself. -/
theorem toInt_toNat_ofNat (v : Nat) (hv : v < 2147483648) : (BitVec.ofNat 32 v).toInt.toNat = v := by
  rw [BitVec.toInt_eq_toNat_of_lt (by rw [BitVec.toNat_ofNat]; omega), BitVec.toNat_ofNat]
  rw [Int.toNat_natCast]
  omega

/-! ## The table of start indices at an index -/

theorem pos_apply (t : Fin 2501) (n : Fin 1024) : pos (ix2 t n) = BitVec.ofNat 32 (512 * t.val + n.val) := by
  have hA : broadcastInDim S2501x1024 ![0, 1] Facts₀.bcast_S2501x1_S2501x1024_0_1
      (muli (broadcastInDim S2501x1 ![0] Facts₀.bcast_S2501_S2501x1_0 (iotaInDim S2501 32 0))
        (broadcastInDim S2501x1 ![] Facts₀.bcast_S_S2501x1 (constantI S_ 32 512#32))) (ix2 t n)
      = BitVec.ofNat 32 t.val * BitVec.ofNat 32 512 := by
    refine (broadcastInDim_apply _ _ _ (ix2 t n) (ix2 t (0 : Fin 1))
      (fun a => match a with | ⟨0, _⟩ => rfl | ⟨1, _⟩ => rfl)).trans ?_
    rw [muli_apply]
    refine congrArg₂ (· * ·) ?_ ?_
    · exact (broadcastInDim_apply _ _ _ (ix2 t (0 : Fin 1)) (ix1 t) (fun a => match a with | ⟨0, _⟩ => rfl)).trans rfl
    · exact (broadcastInDim_scalar_apply _ _ _).trans rfl
  have hB : broadcastInDim S2501x1024 ![0, 1] Facts₀.bcast_S1x1024_S2501x1024_0_1
      (broadcastInDim S1x1024 ![1] Facts₀.bcast_S1024_S1x1024_1 (iotaInDim S1024 32 0)) (ix2 t n)
      = BitVec.ofNat 32 n.val := by
    refine (broadcastInDim_apply _ _ _ (ix2 t n) (ix2 (0 : Fin 1) n)
      (fun a => match a with | ⟨0, _⟩ => rfl | ⟨1, _⟩ => rfl)).trans ?_
    exact (broadcastInDim_apply _ _ _ (ix2 (0 : Fin 1) n) (ix1 n) (fun a => match a with | ⟨0, _⟩ => rfl)).trans rfl
  unfold pos
  rw [addi_apply, hA, hB, ← BitVec.ofNat_mul, ← BitVec.ofNat_add]
  exact congrArg (BitVec.ofNat 32) (by omega)

theorem tbl_apply (t : Fin 2501) (n : Fin 1024) :
    tbl (ix3 t n (0 : Fin 1)) = BitVec.ofNat 32 (512 * t.val + n.val) := by
  unfold tbl
  refine (broadcastInDim_apply _ _ _ (ix3 t n (0 : Fin 1)) (ix2 t n)
    (fun a => match a with | ⟨0, _⟩ => rfl | ⟨1, _⟩ => rfl)).trans ?_
  rw [select_apply, cmpi_apply, pos_apply, broadcastInDim_scalar_apply, constantI_apply,
    cmpi_slt_zero _ (by omega), select_zero]

/-! ## The gather at an index -/

/-- The gather of columns read at (b, t, n): row b of the operand at the start index idx[t, n, 0], read signed and
    clamped into the row. -/
theorem gather_apply {α : Type} (X : S16x1281024.Idx → α) (idx : IVec S2501x1024x1 32)
    (b : Fin 16) (t : Fin 2501) (n : Fin 1024) :
    Host.gather gather_S16x1281024_S2501x1024x1_S16x2501x1024_0_1_n_n_1_2_161 X idx (ix3 b t n)
      = X (ix2 b ⟨min (idx (ix3 t n (0 : Fin 1))).toInt.toNat 1281023, by omega⟩) := by
  unfold Host.gather
  refine congrArg X (funext (Fin.forall_fin_two.2 ⟨Fin.ext ?_, Fin.ext ?_⟩))
  · show GatherDims.start gather_S16x1281024_S2501x1024x1_S16x2501x1024_0_1_n_n_1_2_161 (ix3 b t n) idx 0 + GatherDims.batchCoord gather_S16x1281024_S2501x1024x1_S16x2501x1024_0_1_n_n_1_2_161 (ix3 b t n) 0
        + GatherDims.offCoord gather_S16x1281024_S2501x1024x1_S16x2501x1024_0_1_n_n_1_2_161 (ix3 b t n) 0 = b.val
    have hs : GatherDims.start gather_S16x1281024_S2501x1024x1_S16x2501x1024_0_1_n_n_1_2_161 (ix3 b t n) idx 0 = 0 := by
      unfold GatherDims.start; exact dif_neg (by decide)
    have ho : GatherDims.offCoord gather_S16x1281024_S2501x1024x1_S16x2501x1024_0_1_n_n_1_2_161 (ix3 b t n) 0 = b.val := by
      unfold GatherDims.offCoord; rw [dif_pos (by decide)]; rfl
    rw [GatherDims.batchCoord_eq_zero _ _ _ List.not_mem_nil, hs, ho, Nat.add_zero, Nat.zero_add]
  · show GatherDims.start gather_S16x1281024_S2501x1024x1_S16x2501x1024_0_1_n_n_1_2_161 (ix3 b t n) idx 1 + GatherDims.batchCoord gather_S16x1281024_S2501x1024x1_S16x2501x1024_0_1_n_n_1_2_161 (ix3 b t n) 1
        + GatherDims.offCoord gather_S16x1281024_S2501x1024x1_S16x2501x1024_0_1_n_n_1_2_161 (ix3 b t n) 1 = min (idx (ix3 t n (0 : Fin 1))).toInt.toNat 1281023
    rw [GatherDims.batchCoord_eq_zero _ _ _ List.not_mem_nil, GatherDims.offCoord_eq_zero _ _ _ (by decide),
      Nat.add_zero]
    unfold GatherDims.start
    rw [dif_pos (by decide)]
    have hsi : GatherDims.siIdx gather_S16x1281024_S2501x1024x1_S16x2501x1024_0_1_n_n_1_2_161 (ix3 b t n)
        ⟨List.idxOf (1 : Fin 2) (GatherDims.startIndexMap gather_S16x1281024_S2501x1024x1_S16x2501x1024_0_1_n_n_1_2_161), List.idxOf_lt_length_iff.2 (by decide)⟩
        = ix3 t n (0 : Fin 1) := by
      funext c; refine Fin.ext ?_
      match c with
      | ⟨0, _⟩ => rfl
      | ⟨1, _⟩ => rfl
      | ⟨2, _⟩ => rfl
    rw [hsi]
    rfl

/-! ## The contraction at an index -/

/-- The contraction read at (k, b, t): row k of the left operand against frame (b, t) of the right. -/
theorem dot_apply (fk : FVec Ideal S1026x1024 .f32) (fr : FVec Ideal S16x2501x1024 .f32)
    (k : Fin 1026) (b : Fin 16) (t : Fin 2501) :
    Host.dotGeneral dot_S1026x1024_S16x2501x1024_S1026x16x2501_1_2_0_01_n_n none fk fr (ix3 k b t) = ∑ n : Fin 1024, fk (ix2 k n) * fr (ix3 b t n) := by
  refine (Ideal.dotGeneral_apply dot_S1026x1024_S16x2501x1024_S1026x16x2501_1_2_0_01_n_n none .single fk fr (ix3 k b t)).trans ?_
  rw [← Equiv.sum_comp (contrEquiv1 dot_S1026x1024_S16x2501x1024_S1026x16x2501_1_2_0_01_n_n 1024 rfl rfl).symm]
  refine Finset.sum_congr rfl fun n _ => ?_
  have hl : DotDims.lhsIdx dot_S1026x1024_S16x2501x1024_S1026x16x2501_1_2_0_01_n_n (ix3 k b t) ((contrEquiv1 dot_S1026x1024_S16x2501x1024_S1026x16x2501_1_2_0_01_n_n 1024 rfl rfl).symm n) = ix2 k n := by
    refine funext (Fin.forall_fin_two.2 ⟨Fin.ext ?_, Fin.ext ?_⟩)
    · show (DotDims.lhsIdx dot_S1026x1024_S16x2501x1024_S1026x16x2501_1_2_0_01_n_n (ix3 k b t) ((contrEquiv1 dot_S1026x1024_S16x2501x1024_S1026x16x2501_1_2_0_01_n_n 1024 rfl rfl).symm n) 0).val = k.val
      unfold DotDims.lhsIdx
      rw [dif_neg (by decide), dif_pos (by decide)]
      rfl
    · exact (DotDims.lhsIdx_val_of_single dot_S1026x1024_S16x2501x1024_S1026x16x2501_1_2_0_01_n_n (cl := 1) rfl _ _).trans (contrEquiv1_symm_val dot_S1026x1024_S16x2501x1024_S1026x16x2501_1_2_0_01_n_n 1024 rfl rfl n)
  have hr : DotDims.rhsIdx dot_S1026x1024_S16x2501x1024_S1026x16x2501_1_2_0_01_n_n (ix3 k b t) ((contrEquiv1 dot_S1026x1024_S16x2501x1024_S1026x16x2501_1_2_0_01_n_n 1024 rfl rfl).symm n) = ix3 b t n := by
    funext a; refine Fin.ext ?_
    match a with
    | ⟨0, _⟩ =>
      show (DotDims.rhsIdx dot_S1026x1024_S16x2501x1024_S1026x16x2501_1_2_0_01_n_n (ix3 k b t) ((contrEquiv1 dot_S1026x1024_S16x2501x1024_S1026x16x2501_1_2_0_01_n_n 1024 rfl rfl).symm n) 0).val = b.val
      unfold DotDims.rhsIdx
      rw [dif_neg (by decide), dif_pos (by decide)]
      rfl
    | ⟨1, _⟩ =>
      show (DotDims.rhsIdx dot_S1026x1024_S16x2501x1024_S1026x16x2501_1_2_0_01_n_n (ix3 k b t) ((contrEquiv1 dot_S1026x1024_S16x2501x1024_S1026x16x2501_1_2_0_01_n_n 1024 rfl rfl).symm n) 1).val = t.val
      unfold DotDims.rhsIdx
      rw [dif_neg (by decide), dif_pos (by decide)]
      rfl
    | ⟨2, _⟩ =>
      exact (DotDims.rhsIdx_val_of_single dot_S1026x1024_S16x2501x1024_S1026x16x2501_1_2_0_01_n_n (cr := 2) rfl _ _).trans (contrEquiv1_symm_val dot_S1026x1024_S16x2501x1024_S1026x16x2501_1_2_0_01_n_n 1024 rfl rfl n)
  rw [hl, hr]

/-! ## The frames, the products and the two results at an index -/

theorem frames_apply (x : FVec Ideal S16x1280000 .f32) (b : Fin 16) (t : Fin 2501) (n : Fin 1024) :
    frames x (ix3 b t n) = xp x (ix2 b (Cert.Stft.smp t n)) := by
  unfold frames
  refine (gather_apply (xp x) tbl b t n).trans ?_
  refine congrArg (xp x) (congrArg (ix2 b) (Fin.ext ?_))
  show min (tbl (ix3 t n (0 : Fin 1))).toInt.toNat 1281023 = 512 * t.val + n.val
  rw [tbl_apply, toInt_toNat_ofNat _ (by omega)]
  exact Nat.min_eq_left (by omega)

theorem spec_apply (fk : FVec Ideal S1026x1024 .f32) (x : FVec Ideal S16x1280000 .f32)
    (b : Fin 16) (k : Fin 1026) (t : Fin 2501) :
    spec fk x (ix3 b k t) = Cert.Stft.bin fk (xp x) b k t := by
  unfold spec
  refine (transpose_apply _ _ _ (ix3 b k t) (ix3 k b t)
    (fun c => match c with | ⟨0, _⟩ => rfl | ⟨1, _⟩ => rfl | ⟨2, _⟩ => rfl)).trans ?_
  unfold prod
  refine (dot_apply fk (frames x) k b t).trans ?_
  unfold Cert.Stft.bin
  exact Finset.sum_congr rfl fun n _ => congrArg (fk (ix2 k n) * ·) (frames_apply x b t n)

/-- Rows 0‥512 of the bins are the real parts. -/
theorem re_eq (fk : FVec Ideal S1026x1024 .f32) (x : FVec Ideal S16x1280000 .f32) :
    extractStridedSlice S16x513x2501 ![0, 0, 0] (spec fk x) Facts₀.slices_S16x1026x2501_S16x513x2501_0_0_0
      = Cert.Stft.re fk (xp x) := by
  funext i
  obtain ⟨b, k, t, rfl⟩ : ∃ (b : Fin 16) (k : Fin 513) (t : Fin 2501), i = ix3 b k t := ⟨i 0, i 1, i 2, eq_ix3 i⟩
  refine (slice3_axis1_apply 0 (spec fk x) _ b k t ⟨k.val, by omega⟩ (Nat.zero_add _).symm).trans ?_
  exact spec_apply fk x b ⟨k.val, by omega⟩ t

/-- Rows 513‥1025 of the bins are the imaginary parts. -/
theorem im_eq (fk : FVec Ideal S1026x1024 .f32) (x : FVec Ideal S16x1280000 .f32) :
    extractStridedSlice S16x513x2501 ![0, 513, 0] (spec fk x) Facts₀.slices_S16x1026x2501_S16x513x2501_0_513_0
      = Cert.Stft.im fk (xp x) := by
  funext i
  obtain ⟨b, k, t, rfl⟩ : ∃ (b : Fin 16) (k : Fin 513) (t : Fin 2501), i = ix3 b k t := ⟨i 0, i 1, i 2, eq_ix3 i⟩
  refine (slice3_axis1_apply 513 (spec fk x) _ b k t ⟨k.val + 513, by omega⟩ (Nat.add_comm _ _)).trans ?_
  exact spec_apply fk x b ⟨k.val + 513, by omega⟩ t

/-! ## The run -/

section Run
variable [Cert.ReferenceIdeal.Facts]

set_option maxRecDepth 8192 in
set_option maxHeartbeats 1000000 in
/-- The fold at the first result is the first slice of the named term: each operation's result at its own buffer is
    its function's value, at any other buffer what was there; the typed references' casts are the identity. -/
theorem out19_eq (V : Valuation τ sig (Elt Ideal)) :
    after RefRun.ops V (main_v19 : DevRef τ sig)
      = extractStridedSlice S16x513x2501 ![0, 0, 0] (spec (V (main_arg1 : DevRef τ sig)) (V (main_arg0 : DevRef τ sig)))
          Facts₀.slices_S16x1026x2501_S16x513x2501_0_0_0 := by
  after_results
  rfl

set_option maxRecDepth 8192 in
set_option maxHeartbeats 1000000 in
/-- The fold at the second result is the second slice of the named term. -/
theorem out20_eq (V : Valuation τ sig (Elt Ideal)) :
    after RefRun.ops V (main_v20 : DevRef τ sig)
      = extractStridedSlice S16x513x2501 ![0, 513, 0] (spec (V (main_arg1 : DevRef τ sig)) (V (main_arg0 : DevRef τ sig)))
          Facts₀.slices_S16x1026x2501_S16x513x2501_0_513_0 := by
  after_results
  rfl

set_option maxRecDepth 8192 in
/-- No operation writes the signal. -/
theorem arg0_eq (V : Valuation τ sig (Elt Ideal)) :
    after RefRun.ops V (main_arg0 : DevRef τ sig) = V (main_arg0 : DevRef τ sig) := by
  after_results

set_option maxRecDepth 8192 in
/-- No operation writes the transform's matrix. -/
theorem arg1_eq (V : Valuation τ sig (Elt Ideal)) :
    after RefRun.ops V (main_arg1 : DevRef τ sig) = V (main_arg1 : DevRef τ sig) := by
  after_results

/-- On every device, from any memory with zero counters: every weakly fair execution of @main terminates with the two
    results at the real and imaginary parts of the transform of the reflect-padded signal, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = Cert.Stft.re (m ((c.tc : Thread nD τ).loc main_arg1)) (xp (m ((c.tc : Thread nD τ).loc main_arg0)))
      ∧ r.2.mem ((c.tc : Thread nD τ).loc main_v20) = Cert.Stft.im (m ((c.tc : Thread nD τ).loc main_arg1)) (xp (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c =>
      ⟨((h c main_v19).trans (out19_eq _)).trans (re_eq _ _),
        ((h c main_v20).trans (out20_eq _)).trans (im_eq _ _),
        (h c main_arg0).trans (arg0_eq _),
        (h c main_arg1).trans (arg1_eq _)⟩)
    (RefRun.run_main m ρ)

end Run

end Cert.ReferenceIdeal.RefValue

end
-- ==== Proof.lean ====
/-
  The short-time Fourier transform kernel against its reference, over the extended reals.

  Both programs reflect-pad the signal `x` (16 rows of 1 280 000 samples) by 512 samples on each side and return, for
  every row b, frame t < 2501 and bin k, the inner product of row k of the windowed DFT matrix `fk` with the 1024
  samples of the padded row starting at 512·t: bins 0‥512 as the first result, bins 513‥1025 as the second.

  The reference gathers the 2501 overlapping frames and contracts them with `fk` in one product.  The kernel uses that
  the hop is half the frame: it cuts the zero-extended padded signal into half-frames of 512 samples, hands each grid
  point 1024 consecutive half-frames and the 1024 that follow them by one, multiplies the left half of `fk` with the
  first, the right half with the second, and adds — a regrouping of the same finite sum, valid for every extended
  real, so the precondition (finite inputs) is not used.  Positions past frame 2500, computed from the zero extension,
  are cut off after the call.  The roundings to a narrower float format on the way into the products are the identity
  over the extended reals, and the pass that idealizes the kernel rewrote nothing, so `preserves` has no conjunct.

  The frames: the kernel program's (at both instances) by the run of its one region over the proof data of its body;
  the reference's by its straight-line run.
-/
import proofs.«113678_j12584254177799_2_alg».proof.Defs
import proofs.«113678_j12584254177799_2_alg».proof.Proof.Gen.Kernel
import proofs.«113678_j12584254177799_2_alg».proof.Proof.Gen.KernelIdeal
import proofs.«113678_j12584254177799_2_alg».proof.Proof.Gen.ReferenceIdeal
import proofs.«113678_j12584254177799_2_alg».proof.Proof.Gen.Pre_finite_inputs
import proofs.«113678_j12584254177799_2_alg».proof.Proof.BodyK
import proofs.«113678_j12584254177799_2_alg».proof.Proof.BodyI
import proofs.«113678_j12584254177799_2_alg».proof.Proof.KRun
import proofs.«113678_j12584254177799_2_alg».proof.Proof.KBridge
import proofs.«113678_j12584254177799_2_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Body.frame m ρ

/-- So does the idealized one. -/
theorem frame_ki : Cert.frame_KernelIdeal := fun m ρ _ => Cert.KernelIdeal.Body.frame m ρ

/-- And the reference: its run with the results dropped. -/
theorem frame_ri : Cert.frame_ReferenceIdeal := fun m ρ _ =>
  (θ_run Cert.ReferenceIdeal.defs _ _).mono (fun _ h c => (h c).2.2) (Cert.ReferenceIdeal.RefValue.run m ρ)

/-- The idealization rewrote nothing. -/
theorem preserves : Cert.preserves_Kernel_KernelIdeal := trivial

/-- The two programs pad the signal by the same operations: one function. -/
theorem xp_eq (x : Vec Ideal Cert.KernelIdeal.S16x1280000 .f32) :
    Cert.KernelIdeal.Host.xp (F := Ideal) x = Cert.ReferenceIdeal.RefValue.xp x := rfl

/-- From memories that agree on the two arguments both programs end with the real parts and the imaginary parts of
    the transform of the padded signal: the kernel's result arrays cut to 2501 frames are those (the regrouping of
    each bin's sum into its two half-frame sums), and the reference's results are those term by term. -/
theorem algebraic : Cert.algebraic_KernelIdeal_ReferenceIdeal := by
  intro m ρ m' ρ' _ hagree
  refine ⟨fun c => Cert.Stft.re (m ((c.tc : Thread Cert.KernelIdeal.nD Cert.KernelIdeal.τ).loc Cert.KernelIdeal.main_arg1))
      (Cert.KernelIdeal.Host.xp (m ((c.tc : Thread Cert.KernelIdeal.nD Cert.KernelIdeal.τ).loc Cert.KernelIdeal.main_arg0))),
    fun c => Cert.Stft.im (m ((c.tc : Thread Cert.KernelIdeal.nD Cert.KernelIdeal.τ).loc Cert.KernelIdeal.main_arg1))
      (Cert.KernelIdeal.Host.xp (m ((c.tc : Thread Cert.KernelIdeal.nD Cert.KernelIdeal.τ).loc Cert.KernelIdeal.main_arg0))), ?_, ?_⟩
  · exact (θ_run Cert.KernelIdeal.defs _ _).mono (fun r h c =>
      ⟨(h c).1.trans (Cert.KernelIdeal.Bridge.re_bridge _ _), (h c).2.1.trans (Cert.KernelIdeal.Bridge.im_bridge _ _),
        (h c).2.2.1, (h c).2.2.2⟩) (Cert.KernelIdeal.Run.run m ρ)
  · refine (θ_run Cert.ReferenceIdeal.defs _ _).mono (fun r h c => ⟨?_, ?_, (h c).2.2.1, (h c).2.2.2⟩)
      (Cert.ReferenceIdeal.RefValue.run m' ρ')
    · rw [(h c).1, (hagree c).1, (hagree c).2, ← xp_eq]
    · rw [(h c).2.1, (hagree c).1, (hagree c).2, ← xp_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
